-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S4x64x64 : Shape := ⟨3, ![4, 64, 64]⟩
abbrev S4x64 : Shape := ⟨2, ![4, 64]⟩
abbrev S64x32 : Shape := ⟨2, ![64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S4x64 .f32) (main_arg6 : FVec F S64x32 .f32) (main_arg7 : FVec F S32 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64 .f32 := Host.absf main_arg5
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S4x64x64 .f32) (main_arg3 : FVec F S4x64 .f32) (main_arg4 : FVec F S4x64x64 .f32) (main_arg5 : FVec F S4x64 .f32) (main_arg6 : FVec F S64x32 .f32) (main_arg7 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S4x64x64 .f32 := Host.absf main_arg2
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S4x64x64 .f32 := Host.absf main_arg4
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S4x64x64 : Shape := ⟨3, ![4, 64, 64]⟩
abbrev S4x64 : Shape := ⟨2, ![4, 64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S50000x32 : Shape := ⟨2, ![50000, 32]⟩
abbrev S5000x32 : Shape := ⟨2, ![5000, 32]⟩
abbrev S1x32 : Shape := ⟨2, ![1, 32]⟩
abbrev S5000 : Shape := ⟨1, ![5000]⟩
abbrev S5000x1 : Shape := ⟨2, ![5000, 1]⟩

abbrev nBuf : Space → Nat
  | .hbm => 105
  | .vmem => 38
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S4x64x64, .f32⟩
  | .hbm, ⟨3, _⟩ => ⟨S4x64, .f32⟩
  | .hbm, ⟨4, _⟩ => ⟨S4x64x64, .f32⟩
  | .hbm, ⟨5, _⟩ => ⟨S4x64, .f32⟩
  | .hbm, ⟨6, _⟩ => ⟨S64x32, .f32⟩
  | .hbm, ⟨7, _⟩ => ⟨S32, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S50000x64, .f32⟩
  | .hbm, ⟨26, _⟩ => ⟨S1x64x64, .f32⟩
  | .hbm, ⟨27, _⟩ => ⟨S64x64, .f32⟩
  | .hbm, ⟨28, _⟩ => ⟨S1x64, .f32⟩
  | .hbm, ⟨29, _⟩ => ⟨S64, .f32⟩
  | .hbm, ⟨30, _⟩ => ⟨S1x64x64, .f32⟩
  | .hbm, ⟨31, _⟩ => ⟨S64x64, .f32⟩
  | .hbm, ⟨32, _⟩ => ⟨S1x64, .f32⟩
  | .hbm, ⟨33, _⟩ => ⟨S64, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S50000x64, .f32⟩
  | .hbm, ⟨49, _⟩ => ⟨S1x64x64, .f32⟩
  | .hbm, ⟨50, _⟩ => ⟨S64x64, .f32⟩
  | .hbm, ⟨51, _⟩ => ⟨S1x64, .f32⟩
  | .hbm, ⟨52, _⟩ => ⟨S64, .f32⟩
  | .hbm, ⟨53, _⟩ => ⟨S1x64x64, .f32⟩
  | .hbm, ⟨54, _⟩ => ⟨S64x64, .f32⟩
  | .hbm, ⟨55, _⟩ => ⟨S1x64, .f32⟩
  | .hbm, ⟨56, _⟩ => ⟨S64, .f32⟩
  | .hbm, ⟨57, _⟩ => ⟨S50000x64, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x64, .f32⟩
  | .hbm, ⟨67, _⟩ => ⟨S_, .f32⟩
  | .hbm, ⟨68, _⟩ => ⟨S50000x64, .f32⟩
  | .hbm, ⟨69, _⟩ => ⟨S800000x1, .i32⟩
  | .hbm, ⟨70, _⟩ => ⟨S50000x64, .f32⟩
  | .hbm, ⟨71, _⟩ => ⟨S50000x64, .f32⟩
  | .hbm, ⟨72, _⟩ => ⟨S1x64x64, .f32⟩
  | .hbm, ⟨73, _⟩ => ⟨S64x64, .f32⟩
  | .hbm, ⟨74, _⟩ => ⟨S1x64, .f32⟩
  | .hbm, ⟨75, _⟩ => ⟨S64, .f32⟩
  | .hbm, ⟨76, _⟩ => ⟨S1x64x64, .f32⟩
  | .hbm, ⟨77, _⟩ => ⟨S64x64, .f32⟩
  | .hbm, ⟨78, _⟩ => ⟨S1x64, .f32⟩
  | .hbm, ⟨79, _⟩ => ⟨S64, .f32⟩
  | .hbm, ⟨80, _⟩ => ⟨S50000x64, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x64, .f32⟩
  | .hbm, ⟨90, _⟩ => ⟨S_, .f32⟩
  | .hbm, ⟨91, _⟩ => ⟨S50000x64, .f32⟩
  | .hbm, ⟨92, _⟩ => ⟨S800000x1, .i32⟩
  | .hbm, ⟨93, _⟩ => ⟨S50000x64, .f32⟩
  | .hbm, ⟨94, _⟩ => ⟨S50000x64, .f32⟩
  | .hbm, ⟨95, _⟩ => ⟨S1x64x64, .f32⟩
  | .hbm, ⟨96, _⟩ => ⟨S64x64, .f32⟩
  | .hbm, ⟨97, _⟩ => ⟨S1x64, .f32⟩
  | .hbm, ⟨98, _⟩ => ⟨S64, .f32⟩
  | .hbm, ⟨99, _⟩ => ⟨S1x64x64, .f32⟩
  | .hbm, ⟨100, _⟩ => ⟨S64x64, .f32⟩
  | .hbm, ⟨101, _⟩ => ⟨S1x64, .f32⟩
  | .hbm, ⟨102, _⟩ => ⟨S64, .f32⟩
  | .hbm, ⟨103, _⟩ => ⟨S50000x64, .f32⟩
  | .hbm, ⟨104, _⟩ => ⟨S50000x32, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64, .f32⟩
  | .local _ .vmem, ⟨20, _⟩ => ⟨S64x64, .f32⟩
  | .local _ .vmem, ⟨21, _⟩ => ⟨S64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S64, .f32⟩
  | .local _ .vmem, ⟨28, _⟩ => ⟨S64x64, .f32⟩
  | .local _ .vmem, ⟨29, _⟩ => ⟨S64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x32, .f32⟩
  | .local _ .vmem, ⟨35, _⟩ => ⟨S32, .f32⟩
  | .local _ .vmem, ⟨36, _⟩ => ⟨S5000x32, .f32⟩
  | .local _ .vmem, ⟨37, _⟩ => ⟨S5000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_4 : Ref sig .tc := ⟨.hbm, 58, rfl⟩
abbrev main_v44 : Ref sig .tc := ⟨.hbm, 59, rfl⟩
abbrev main_v45 : Ref sig .tc := ⟨.hbm, 60, rfl⟩
abbrev main_c_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_7 : Ref sig .tc := ⟨.hbm, 81, rfl⟩
abbrev main_v64 : Ref sig .tc := ⟨.hbm, 82, rfl⟩
abbrev main_v65 : Ref sig .tc := ⟨.hbm, 83, rfl⟩
abbrev main_c_8 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_9 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S5000x64 : S1x64.Broadcasts S5000x64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  reduces_S5000x32_S5000 : S5000x32.Reduces [1] S5000
  shapeCasts_S5000_S5000x1 : S5000.ShapeCasts S5000x1
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32.size a ≤ S32.size a
  hwx4_2 : ∀ i : grid4.Coords, EltTy.bits .f32 = 32 ∨ (Rect.block (s := S32) S32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x32.size a ≤ S50000x32.size a
  hwx4_3 : ∀ i : grid4.Coords, EltTy.bits .f32 = 32 ∨ (Rect.block (s := S50000x32) S5000x32.size (cc4_transform_3 i) (hinb4_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v14) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v74) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v83) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84) S5000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S4x64x64 : Shape := ⟨3, ![4, 64, 64]⟩
abbrev S4x64 : Shape := ⟨2, ![4, 64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S50000x32 : Shape := ⟨2, ![50000, 32]⟩
abbrev S1x32 : Shape := ⟨2, ![1, 32]⟩
abbrev S50000 : Shape := ⟨1, ![50000]⟩
abbrev S50000x1 : Shape := ⟨2, ![50000, 1]⟩

abbrev nBuf : Space → Nat
  | .hbm => 158
  | .vmem => 0
  | .smem => 0
  | _ => 0

abbrev hbmTy0_0 (i : Nat) : BufTy := match i % 128 with
  | 0 => ⟨S50000x64, .f32⟩
  | 1 => ⟨S2x800000, .i32⟩
  | 2 => ⟨S4x64x64, .f32⟩
  | 3 => ⟨S4x64, .f32⟩
  | 4 => ⟨S4x64x64, .f32⟩
  | 5 => ⟨S4x64, .f32⟩
  | 6 => ⟨S64x32, .f32⟩
  | 7 => ⟨S32, .f32⟩
  | 8 => ⟨S1x800000, .i32⟩
  | 9 => ⟨S800000, .i32⟩
  | 10 => ⟨S1x800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S_, .f32⟩
  | 22 => ⟨S50000x64, .f32⟩
  | 23 => ⟨S800000x1, .i32⟩
  | 24 => ⟨S50000x64, .f32⟩
  | 25 => ⟨S50000x64, .f32⟩
  | 26 => ⟨S1x64x64, .f32⟩
  | 27 => ⟨S64x64, .f32⟩
  | 28 => ⟨S50000x64, .f32⟩
  | 29 => ⟨S1x64, .f32⟩
  | 30 => ⟨S64, .f32⟩
  | 31 => ⟨S1x64, .f32⟩
  | 32 => ⟨S50000x64, .f32⟩
  | 33 => ⟨S50000x64, .f32⟩
  | 34 => ⟨S_, .f32⟩
  | 35 => ⟨S50000x64, .f32⟩
  | 36 => ⟨S50000x64, .f32⟩
  | 37 => ⟨S1x64x64, .f32⟩
  | 38 => ⟨S64x64, .f32⟩
  | 39 => ⟨S50000x64, .f32⟩
  | 40 => ⟨S1x64, .f32⟩
  | 41 => ⟨S64, .f32⟩
  | 42 => ⟨S1x64, .f32⟩
  | 43 => ⟨S50000x64, .f32⟩
  | 44 => ⟨S50000x64, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x64, .f32⟩
  | 54 => ⟨S_, .f32⟩
  | 55 => ⟨S50000x64, .f32⟩
  | 56 => ⟨S800000x1, .i32⟩
  | 57 => ⟨S50000x64, .f32⟩
  | 58 => ⟨S50000x64, .f32⟩
  | 59 => ⟨S1x64x64, .f32⟩
  | 60 => ⟨S64x64, .f32⟩
  | 61 => ⟨S50000x64, .f32⟩
  | 62 => ⟨S1x64, .f32⟩
  | 63 => ⟨S64, .f32⟩
  | 64 => ⟨S1x64, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S1x64x64, .f32⟩
  | 71 => ⟨S64x64, .f32⟩
  | 72 => ⟨S50000x64, .f32⟩
  | 73 => ⟨S1x64, .f32⟩
  | 74 => ⟨S64, .f32⟩
  | 75 => ⟨S1x64, .f32⟩
  | 76 => ⟨S50000x64, .f32⟩
  | 77 => ⟨S50000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x64, .f32⟩
  | 87 => ⟨S_, .f32⟩
  | 88 => ⟨S50000x64, .f32⟩
  | 89 => ⟨S800000x1, .i32⟩
  | 90 => ⟨S50000x64, .f32⟩
  | 91 => ⟨S50000x64, .f32⟩
  | 92 => ⟨S1x64x64, .f32⟩
  | 93 => ⟨S64x64, .f32⟩
  | 94 => ⟨S50000x64, .f32⟩
  | 95 => ⟨S1x64, .f32⟩
  | 96 => ⟨S64, .f32⟩
  | 97 => ⟨S1x64, .f32⟩
  | 98 => ⟨S50000x64, .f32⟩
  | 99 => ⟨S50000x64, .f32⟩
  | 100 => ⟨S_, .f32⟩
  | 101 => ⟨S50000x64, .f32⟩
  | 102 => ⟨S50000x64, .f32⟩
  | 103 => ⟨S1x64x64, .f32⟩
  | 104 => ⟨S64x64, .f32⟩
  | 105 => ⟨S50000x64, .f32⟩
  | 106 => ⟨S1x64, .f32⟩
  | 107 => ⟨S64, .f32⟩
  | 108 => ⟨S1x64, .f32⟩
  | 109 => ⟨S50000x64, .f32⟩
  | 110 => ⟨S50000x64, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x64, .f32⟩
  | 120 => ⟨S_, .f32⟩
  | 121 => ⟨S50000x64, .f32⟩
  | 122 => ⟨S800000x1, .i32⟩
  | 123 => ⟨S50000x64, .f32⟩
  | 124 => ⟨S50000x64, .f32⟩
  | 125 => ⟨S1x64x64, .f32⟩
  | 126 => ⟨S64x64, .f32⟩
  | 127 => ⟨S50000x64, .f32⟩
  | _ => ⟨S50000x64, .f32⟩

abbrev hbmTy0_1 (i : Nat) : BufTy := match i % 128 with
  | 0 => ⟨S1x64, .f32⟩
  | 1 => ⟨S64, .f32⟩
  | 2 => ⟨S1x64, .f32⟩
  | 3 => ⟨S50000x64, .f32⟩
  | 4 => ⟨S50000x64, .f32⟩
  | 5 => ⟨S_, .f32⟩
  | 6 => ⟨S50000x64, .f32⟩
  | 7 => ⟨S50000x64, .f32⟩
  | 8 => ⟨S1x64x64, .f32⟩
  | 9 => ⟨S64x64, .f32⟩
  | 10 => ⟨S50000x64, .f32⟩
  | 11 => ⟨S1x64, .f32⟩
  | 12 => ⟨S64, .f32⟩
  | 13 => ⟨S1x64, .f32⟩
  | 14 => ⟨S50000x64, .f32⟩
  | 15 => ⟨S50000x64, .f32⟩
  | 16 => ⟨S50000x32, .f32⟩
  | 17 => ⟨S1x32, .f32⟩
  | 18 => ⟨S50000x32, .f32⟩
  | 19 => ⟨S50000x32, .f32⟩
  | 20 => ⟨S50000x32, .f32⟩
  | 21 => ⟨S_, .f32⟩
  | 22 => ⟨S50000, .f32⟩
  | 23 => ⟨S50000x1, .f32⟩
  | 24 => ⟨S50000x1, .f32⟩
  | 25 => ⟨S_, .f32⟩
  | 26 => ⟨S50000x1, .f32⟩
  | 27 => ⟨S50000x1, .f32⟩
  | 28 => ⟨S50000x32, .f32⟩
  | 29 => ⟨S50000x32, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_1 : Ref sig .tc := ⟨.hbm, 45, rfl⟩
abbrev main_v32 : Ref sig .tc := ⟨.hbm, 46, rfl⟩
abbrev main_v33 : Ref sig .tc := ⟨.hbm, 47, rfl⟩
abbrev main_c_2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call1_cst : Ref sig .tc := ⟨.hbm, 67, rfl⟩
abbrev main_call1_v0 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_4 : Ref sig .tc := ⟨.hbm, 78, rfl⟩
abbrev main_v60 : Ref sig .tc := ⟨.hbm, 79, rfl⟩
abbrev main_v61 : Ref sig .tc := ⟨.hbm, 80, rfl⟩
abbrev main_c_5 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_6 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_call2_cst : Ref sig .tc := ⟨.hbm, 100, rfl⟩
abbrev main_call2_v0 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_c_7 : Ref sig .tc := ⟨.hbm, 111, rfl⟩
abbrev main_v88 : Ref sig .tc := ⟨.hbm, 112, rfl⟩
abbrev main_v89 : Ref sig .tc := ⟨.hbm, 113, rfl⟩
abbrev main_c_8 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_9 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_call3_cst : Ref sig .tc := ⟨.hbm, 133, rfl⟩
abbrev main_call3_v0 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_call4_v0 : Ref sig .tc := ⟨.hbm, 148, rfl⟩
abbrev main_call4_cst : Ref sig .tc := ⟨.hbm, 149, rfl⟩
abbrev main_call4_v1 : Ref sig .tc := ⟨.hbm, 150, rfl⟩
abbrev main_call4_v2 : Ref sig .tc := ⟨.hbm, 151, rfl⟩
abbrev main_v120 : Ref sig .tc := ⟨.hbm, 152, rfl⟩
abbrev main_cst_10 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf

class Facts : Prop extends Facts₀ where

variable [Facts]
-- ==== Proof.KRun.lean ====
/-
  The idealized kernel program's run, with its result named.  The program is four perceptron launches and the
  read-out launch among stretches of host operations; every weakly fair execution passes through the nine
  segments in order, and at the end every buffer that outlives a launch holds the contents the segment-by-segment
  fold `W9` gives it.  Read at the result buffer and at the eight arguments, that is: the result is what the
  last launch's write-backs leave (`W9` at the result), and the arguments are as launched.
-/
import proofs.«142178_j54185307406769_1_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and the arguments as launched. -/
theorem run_result : θ_run defs (onTc (τ := τ) (main (F := F))) ⟨m, fun _ => 0, ρ⟩ (fun r => ∀ c : Dev nD,
      r.2.mem ((c.tc : Thread nD τ).loc main_v84) = W9 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v84 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KRun

end
-- ==== Proof.KCarry.lean ====
/-
  Buffers the idealized kernel program writes once and reads in every later layer: the two edge-index arrays made
  from the edge list before the first launch, and the weight arguments.  No launch and no later host operation
  writes them, so at every segment boundary they still hold what they held after the first stretch of host
  operations: the source and destination index arrays as functions of the edge-list argument, and the arguments
  as launched.
-/
import proofs.«142178_j54185307406769_1_alg».proof.Proof.Gen.KernelIdeal.Frame
import proofs.«142178_j54185307406769_1_alg».proof.Proof.Gen.ReferenceIdeal.Read

set_option maxRecDepth 16384

noncomputable section

namespace Cert.KCarry

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg)

set_option maxHeartbeats 4000000 in
theorem c1_v1 (c : Dev nD) : W1 m ρ c (Proc.devRef .tc main_v1) = Cert.ReferenceIdeal.Read.val_main_v1 (F := Ideal) (m ((c : Thread nD τ).loc main_arg1)) := by
  dsimp only [W1, hostOps0]
  after_results <;> rfl
theorem c2_v1 (c : Dev nD) : W2 m ρ c (Proc.devRef .tc main_v1) = Cert.ReferenceIdeal.Read.val_main_v1 (F := Ideal) (m ((c : Thread nD τ).loc main_arg1)) :=
  (W2_of_ne m ρ c main_v1 (by decide)).trans (c1_v1 m ρ c)
set_option maxHeartbeats 4000000 in
theorem c3_v1 (c : Dev nD) : W3 m ρ c (Proc.devRef .tc main_v1) = Cert.ReferenceIdeal.Read.val_main_v1 (F := Ideal) (m ((c : Thread nD τ).loc main_arg1)) := by
  dsimp only [W3, hostOps1]
  after_results <;> exact c2_v1 m ρ c
theorem c4_v1 (c : Dev nD) : W4 m ρ c (Proc.devRef .tc main_v1) = Cert.ReferenceIdeal.Read.val_main_v1 (F := Ideal) (m ((c : Thread nD τ).loc main_arg1)) :=
  (W4_of_ne m ρ c main_v1 (by decide)).trans (c3_v1 m ρ c)
set_option maxHeartbeats 4000000 in
theorem c5_v1 (c : Dev nD) : W5 m ρ c (Proc.devRef .tc main_v1) = Cert.ReferenceIdeal.Read.val_main_v1 (F := Ideal) (m ((c : Thread nD τ).loc main_arg1)) := by
  dsimp only [W5, hostOps2]
  after_results <;> exact c4_v1 m ρ c
theorem c6_v1 (c : Dev nD) : W6 m ρ c (Proc.devRef .tc main_v1) = Cert.ReferenceIdeal.Read.val_main_v1 (F := Ideal) (m ((c : Thread nD τ).loc main_arg1)) :=
  (W6_of_ne m ρ c main_v1 (by decide)).trans (c5_v1 m ρ c)

set_option maxHeartbeats 4000000 in
theorem c1_v3 (c : Dev nD) : W1 m ρ c (Proc.devRef .tc main_v3) = Cert.ReferenceIdeal.Read.val_main_v3 (F := Ideal) (m ((c : Thread nD τ).loc main_arg1)) := by
  dsimp only [W1, hostOps0]
  after_results <;> rfl
theorem c2_v3 (c : Dev nD) : W2 m ρ c (Proc.devRef .tc main_v3) = Cert.ReferenceIdeal.Read.val_main_v3 (F := Ideal) (m ((c : Thread nD τ).loc main_arg1)) :=
  (W2_of_ne m ρ c main_v3 (by decide)).trans (c1_v3 m ρ c)
set_option maxHeartbeats 4000000 in
theorem c3_v3 (c : Dev nD) : W3 m ρ c (Proc.devRef .tc main_v3) = Cert.ReferenceIdeal.Read.val_main_v3 (F := Ideal) (m ((c : Thread nD τ).loc main_arg1)) := by
  dsimp only [W3, hostOps1]
  after_results <;> exact c2_v3 m ρ c
theorem c4_v3 (c : Dev nD) : W4 m ρ c (Proc.devRef .tc main_v3) = Cert.ReferenceIdeal.Read.val_main_v3 (F := Ideal) (m ((c : Thread nD τ).loc main_arg1)) :=
  (W4_of_ne m ρ c main_v3 (by decide)).trans (c3_v3 m ρ c)
set_option maxHeartbeats 4000000 in
theorem c5_v3 (c : Dev nD) : W5 m ρ c (Proc.devRef .tc main_v3) = Cert.ReferenceIdeal.Read.val_main_v3 (F := Ideal) (m ((c : Thread nD τ).loc main_arg1)) := by
  dsimp only [W5, hostOps2]
  after_results <;> exact c4_v3 m ρ c
theorem c6_v3 (c : Dev nD) : W6 m ρ c (Proc.devRef .tc main_v3) = Cert.ReferenceIdeal.Read.val_main_v3 (F := Ideal) (m ((c : Thread nD τ).loc main_arg1)) :=
  (W6_of_ne m ρ c main_v3 (by decide)).trans (c5_v3 m ρ c)

set_option maxHeartbeats 4000000 in
theorem c1_arg2 (c : Dev nD) : W1 m ρ c (Proc.devRef .tc main_arg2) = (m ((c : Thread nD τ).loc main_arg2)) := by
  dsimp only [W1, hostOps0]
  after_results <;> rfl
theorem c2_arg2 (c : Dev nD) : W2 m ρ c (Proc.devRef .tc main_arg2) = (m ((c : Thread nD τ).loc main_arg2)) :=
  (W2_of_ne m ρ c main_arg2 (by decide)).trans (c1_arg2 m ρ c)
set_option maxHeartbeats 4000000 in
theorem c3_arg2 (c : Dev nD) : W3 m ρ c (Proc.devRef .tc main_arg2) = (m ((c : Thread nD τ).loc main_arg2)) := by
  dsimp only [W3, hostOps1]
  after_results <;> exact c2_arg2 m ρ c
theorem c4_arg2 (c : Dev nD) : W4 m ρ c (Proc.devRef .tc main_arg2) = (m ((c : Thread nD τ).loc main_arg2)) :=
  (W4_of_ne m ρ c main_arg2 (by decide)).trans (c3_arg2 m ρ c)
set_option maxHeartbeats 4000000 in
theorem c5_arg2 (c : Dev nD) : W5 m ρ c (Proc.devRef .tc main_arg2) = (m ((c : Thread nD τ).loc main_arg2)) := by
  dsimp only [W5, hostOps2]
  after_results <;> exact c4_arg2 m ρ c
theorem c6_arg2 (c : Dev nD) : W6 m ρ c (Proc.devRef .tc main_arg2) = (m ((c : Thread nD τ).loc main_arg2)) :=
  (W6_of_ne m ρ c main_arg2 (by decide)).trans (c5_arg2 m ρ c)

set_option maxHeartbeats 4000000 in
theorem c1_arg3 (c : Dev nD) : W1 m ρ c (Proc.devRef .tc main_arg3) = (m ((c : Thread nD τ).loc main_arg3)) := by
  dsimp only [W1, hostOps0]
  after_results <;> rfl
theorem c2_arg3 (c : Dev nD) : W2 m ρ c (Proc.devRef .tc main_arg3) = (m ((c : Thread nD τ).loc main_arg3)) :=
  (W2_of_ne m ρ c main_arg3 (by decide)).trans (c1_arg3 m ρ c)
set_option maxHeartbeats 4000000 in
theorem c3_arg3 (c : Dev nD) : W3 m ρ c (Proc.devRef .tc main_arg3) = (m ((c : Thread nD τ).loc main_arg3)) := by
  dsimp only [W3, hostOps1]
  after_results <;> exact c2_arg3 m ρ c
theorem c4_arg3 (c : Dev nD) : W4 m ρ c (Proc.devRef .tc main_arg3) = (m ((c : Thread nD τ).loc main_arg3)) :=
  (W4_of_ne m ρ c main_arg3 (by decide)).trans (c3_arg3 m ρ c)
set_option maxHeartbeats 4000000 in
theorem c5_arg3 (c : Dev nD) : W5 m ρ c (Proc.devRef .tc main_arg3) = (m ((c : Thread nD τ).loc main_arg3)) := by
  dsimp only [W5, hostOps2]
  after_results <;> exact c4_arg3 m ρ c
theorem c6_arg3 (c : Dev nD) : W6 m ρ c (Proc.devRef .tc main_arg3) = (m ((c : Thread nD τ).loc main_arg3)) :=
  (W6_of_ne m ρ c main_arg3 (by decide)).trans (c5_arg3 m ρ c)

set_option maxHeartbeats 4000000 in
theorem c1_arg4 (c : Dev nD) : W1 m ρ c (Proc.devRef .tc main_arg4) = (m ((c : Thread nD τ).loc main_arg4)) := by
  dsimp only [W1, hostOps0]
  after_results <;> rfl
theorem c2_arg4 (c : Dev nD) : W2 m ρ c (Proc.devRef .tc main_arg4) = (m ((c : Thread nD τ).loc main_arg4)) :=
  (W2_of_ne m ρ c main_arg4 (by decide)).trans (c1_arg4 m ρ c)
set_option maxHeartbeats 4000000 in
theorem c3_arg4 (c : Dev nD) : W3 m ρ c (Proc.devRef .tc main_arg4) = (m ((c : Thread nD τ).loc main_arg4)) := by
  dsimp only [W3, hostOps1]
  after_results <;> exact c2_arg4 m ρ c
theorem c4_arg4 (c : Dev nD) : W4 m ρ c (Proc.devRef .tc main_arg4) = (m ((c : Thread nD τ).loc main_arg4)) :=
  (W4_of_ne m ρ c main_arg4 (by decide)).trans (c3_arg4 m ρ c)
set_option maxHeartbeats 4000000 in
theorem c5_arg4 (c : Dev nD) : W5 m ρ c (Proc.devRef .tc main_arg4) = (m ((c : Thread nD τ).loc main_arg4)) := by
  dsimp only [W5, hostOps2]
  after_results <;> exact c4_arg4 m ρ c
theorem c6_arg4 (c : Dev nD) : W6 m ρ c (Proc.devRef .tc main_arg4) = (m ((c : Thread nD τ).loc main_arg4)) :=
  (W6_of_ne m ρ c main_arg4 (by decide)).trans (c5_arg4 m ρ c)

set_option maxHeartbeats 4000000 in
theorem c1_arg5 (c : Dev nD) : W1 m ρ c (Proc.devRef .tc main_arg5) = (m ((c : Thread nD τ).loc main_arg5)) := by
  dsimp only [W1, hostOps0]
  after_results <;> rfl
theorem c2_arg5 (c : Dev nD) : W2 m ρ c (Proc.devRef .tc main_arg5) = (m ((c : Thread nD τ).loc main_arg5)) :=
  (W2_of_ne m ρ c main_arg5 (by decide)).trans (c1_arg5 m ρ c)
set_option maxHeartbeats 4000000 in
theorem c3_arg5 (c : Dev nD) : W3 m ρ c (Proc.devRef .tc main_arg5) = (m ((c : Thread nD τ).loc main_arg5)) := by
  dsimp only [W3, hostOps1]
  after_results <;> exact c2_arg5 m ρ c
theorem c4_arg5 (c : Dev nD) : W4 m ρ c (Proc.devRef .tc main_arg5) = (m ((c : Thread nD τ).loc main_arg5)) :=
  (W4_of_ne m ρ c main_arg5 (by decide)).trans (c3_arg5 m ρ c)
set_option maxHeartbeats 4000000 in
theorem c5_arg5 (c : Dev nD) : W5 m ρ c (Proc.devRef .tc main_arg5) = (m ((c : Thread nD τ).loc main_arg5)) := by
  dsimp only [W5, hostOps2]
  after_results <;> exact c4_arg5 m ρ c
theorem c6_arg5 (c : Dev nD) : W6 m ρ c (Proc.devRef .tc main_arg5) = (m ((c : Thread nD τ).loc main_arg5)) :=
  (W6_of_ne m ρ c main_arg5 (by decide)).trans (c5_arg5 m ρ c)

set_option maxHeartbeats 4000000 in
theorem c1_arg6 (c : Dev nD) : W1 m ρ c (Proc.devRef .tc main_arg6) = (m ((c : Thread nD τ).loc main_arg6)) := by
  dsimp only [W1, hostOps0]
  after_results <;> rfl
theorem c2_arg6 (c : Dev nD) : W2 m ρ c (Proc.devRef .tc main_arg6) = (m ((c : Thread nD τ).loc main_arg6)) :=
  (W2_of_ne m ρ c main_arg6 (by decide)).trans (c1_arg6 m ρ c)
set_option maxHeartbeats 4000000 in
theorem c3_arg6 (c : Dev nD) : W3 m ρ c (Proc.devRef .tc main_arg6) = (m ((c : Thread nD τ).loc main_arg6)) := by
  dsimp only [W3, hostOps1]
  after_results <;> exact c2_arg6 m ρ c
theorem c4_arg6 (c : Dev nD) : W4 m ρ c (Proc.devRef .tc main_arg6) = (m ((c : Thread nD τ).loc main_arg6)) :=
  (W4_of_ne m ρ c main_arg6 (by decide)).trans (c3_arg6 m ρ c)
set_option maxHeartbeats 4000000 in
theorem c5_arg6 (c : Dev nD) : W5 m ρ c (Proc.devRef .tc main_arg6) = (m ((c : Thread nD τ).loc main_arg6)) := by
  dsimp only [W5, hostOps2]
  after_results <;> exact c4_arg6 m ρ c
theorem c6_arg6 (c : Dev nD) : W6 m ρ c (Proc.devRef .tc main_arg6) = (m ((c : Thread nD τ).loc main_arg6)) :=
  (W6_of_ne m ρ c main_arg6 (by decide)).trans (c5_arg6 m ρ c)
set_option maxHeartbeats 4000000 in
theorem c7_arg6 (c : Dev nD) : W7 m ρ c (Proc.devRef .tc main_arg6) = (m ((c : Thread nD τ).loc main_arg6)) := by
  dsimp only [W7, hostOps3]
  after_results <;> exact c6_arg6 m ρ c
theorem c8_arg6 (c : Dev nD) : W8 m ρ c (Proc.devRef .tc main_arg6) = (m ((c : Thread nD τ).loc main_arg6)) :=
  (W8_of_ne m ρ c main_arg6 (by decide)).trans (c7_arg6 m ρ c)

set_option maxHeartbeats 4000000 in
theorem c1_arg7 (c : Dev nD) : W1 m ρ c (Proc.devRef .tc main_arg7) = (m ((c : Thread nD τ).loc main_arg7)) := by
  dsimp only [W1, hostOps0]
  after_results <;> rfl
theorem c2_arg7 (c : Dev nD) : W2 m ρ c (Proc.devRef .tc main_arg7) = (m ((c : Thread nD τ).loc main_arg7)) :=
  (W2_of_ne m ρ c main_arg7 (by decide)).trans (c1_arg7 m ρ c)
set_option maxHeartbeats 4000000 in
theorem c3_arg7 (c : Dev nD) : W3 m ρ c (Proc.devRef .tc main_arg7) = (m ((c : Thread nD τ).loc main_arg7)) := by
  dsimp only [W3, hostOps1]
  after_results <;> exact c2_arg7 m ρ c
theorem c4_arg7 (c : Dev nD) : W4 m ρ c (Proc.devRef .tc main_arg7) = (m ((c : Thread nD τ).loc main_arg7)) :=
  (W4_of_ne m ρ c main_arg7 (by decide)).trans (c3_arg7 m ρ c)
set_option maxHeartbeats 4000000 in
theorem c5_arg7 (c : Dev nD) : W5 m ρ c (Proc.devRef .tc main_arg7) = (m ((c : Thread nD τ).loc main_arg7)) := by
  dsimp only [W5, hostOps2]
  after_results <;> exact c4_arg7 m ρ c
theorem c6_arg7 (c : Dev nD) : W6 m ρ c (Proc.devRef .tc main_arg7) = (m ((c : Thread nD τ).loc main_arg7)) :=
  (W6_of_ne m ρ c main_arg7 (by decide)).trans (c5_arg7 m ρ c)
set_option maxHeartbeats 4000000 in
theorem c7_arg7 (c : Dev nD) : W7 m ρ c (Proc.devRef .tc main_arg7) = (m ((c : Thread nD τ).loc main_arg7)) := by
  dsimp only [W7, hostOps3]
  after_results <;> exact c6_arg7 m ρ c
theorem c8_arg7 (c : Dev nD) : W8 m ρ c (Proc.devRef .tc main_arg7) = (m ((c : Thread nD τ).loc main_arg7)) :=
  (W8_of_ne m ρ c main_arg7 (by decide)).trans (c7_arg7 m ρ c)

end Cert.KCarry

end
-- ==== Proof.KEntry.lean ====
/-
  What each perceptron launch of the idealized kernel program finds in its five operand arrays.  The host
  operations before launch k aggregate the previous result (the node features, for k = 0) over the edge list and
  slice layer k out of the four weight arrays: the very operations of the reference, so each operand is the
  reference's own stage function of the previous result and the arguments.  The aggregation is compared as one
  function and never opened.
-/
import proofs.«142178_j54185307406769_1_alg».proof.Proof.KCarry

set_option maxRecDepth 16384

noncomputable section

namespace Cert.KEntry

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg)

set_option maxHeartbeats 4000000 in
/-- The aggregated features entering launch 0: the shared aggregation of the node-feature argument and the edge list. -/
theorem e1_a (c : Dev nD) : W1 m ρ c (Proc.devRef .tc main_v14)
    = Cert.ReferenceIdeal.Read.val_main_v14 (F := Ideal) (m ((c : Thread nD τ).loc main_arg0)) (m ((c : Thread nD τ).loc main_arg1)) := by
  dsimp only [W1, hostOps0]
  after_results
  rfl
set_option maxHeartbeats 4000000 in
theorem e1_w1 (c : Dev nD) : W1 m ρ c (Proc.devRef .tc main_v16) = Cert.ReferenceIdeal.Read.val_main_v16 (F := Ideal) (m ((c : Thread nD τ).loc main_arg2)) := by
  dsimp only [W1, hostOps0]
  after_results
  rfl
set_option maxHeartbeats 4000000 in
theorem e1_b1 (c : Dev nD) : W1 m ρ c (Proc.devRef .tc main_v18) = Cert.ReferenceIdeal.Read.val_main_v19 (F := Ideal) (m ((c : Thread nD τ).loc main_arg3)) := by
  dsimp only [W1, hostOps0]
  after_results
  rfl
set_option maxHeartbeats 4000000 in
theorem e1_w2 (c : Dev nD) : W1 m ρ c (Proc.devRef .tc main_v20) = Cert.ReferenceIdeal.Read.val_main_v25 (F := Ideal) (m ((c : Thread nD τ).loc main_arg4)) := by
  dsimp only [W1, hostOps0]
  after_results
  rfl
set_option maxHeartbeats 4000000 in
theorem e1_b2 (c : Dev nD) : W1 m ρ c (Proc.devRef .tc main_v22) = Cert.ReferenceIdeal.Read.val_main_v28 (F := Ideal) (m ((c : Thread nD τ).loc main_arg5)) := by
  dsimp only [W1, hostOps0]
  after_results
  rfl

set_option maxHeartbeats 4000000 in
/-- The aggregated features entering launch 1: the shared aggregation of the previous launch's result and the edge list. -/
theorem e3_a (c : Dev nD) : W3 m ρ c (Proc.devRef .tc main_v34)
    = Cert.ReferenceIdeal.Read.val_main_v14 (F := Ideal) (W2 m ρ c (Proc.devRef .tc main_v23)) (m ((c : Thread nD τ).loc main_arg1)) := by
  dsimp only [W3, hostOps1]
  after_results
  rw [Cert.KCarry.c2_v1 m ρ c, Cert.KCarry.c2_v3 m ρ c]
  rfl
set_option maxHeartbeats 4000000 in
theorem e3_w1 (c : Dev nD) : W3 m ρ c (Proc.devRef .tc main_v36) = Cert.ReferenceIdeal.Read.val_main_v44 (F := Ideal) (m ((c : Thread nD τ).loc main_arg2)) := by
  dsimp only [W3, hostOps1]
  after_results
  rw [Cert.KCarry.c2_arg2 m ρ c]
  rfl
set_option maxHeartbeats 4000000 in
theorem e3_b1 (c : Dev nD) : W3 m ρ c (Proc.devRef .tc main_v38) = Cert.ReferenceIdeal.Read.val_main_v47 (F := Ideal) (m ((c : Thread nD τ).loc main_arg3)) := by
  dsimp only [W3, hostOps1]
  after_results
  rw [Cert.KCarry.c2_arg3 m ρ c]
  rfl
set_option maxHeartbeats 4000000 in
theorem e3_w2 (c : Dev nD) : W3 m ρ c (Proc.devRef .tc main_v40) = Cert.ReferenceIdeal.Read.val_main_v53 (F := Ideal) (m ((c : Thread nD τ).loc main_arg4)) := by
  dsimp only [W3, hostOps1]
  after_results
  rw [Cert.KCarry.c2_arg4 m ρ c]
  rfl
set_option maxHeartbeats 4000000 in
theorem e3_b2 (c : Dev nD) : W3 m ρ c (Proc.devRef .tc main_v42) = Cert.ReferenceIdeal.Read.val_main_v56 (F := Ideal) (m ((c : Thread nD τ).loc main_arg5)) := by
  dsimp only [W3, hostOps1]
  after_results
  rw [Cert.KCarry.c2_arg5 m ρ c]
  rfl

set_option maxHeartbeats 4000000 in
/-- The aggregated features entering launch 2: the shared aggregation of the previous launch's result and the edge list. -/
theorem e5_a (c : Dev nD) : W5 m ρ c (Proc.devRef .tc main_v54)
    = Cert.ReferenceIdeal.Read.val_main_v14 (F := Ideal) (W4 m ρ c (Proc.devRef .tc main_v43)) (m ((c : Thread nD τ).loc main_arg1)) := by
  dsimp only [W5, hostOps2]
  after_results
  rw [Cert.KCarry.c4_v1 m ρ c, Cert.KCarry.c4_v3 m ρ c]
  rfl
set_option maxHeartbeats 4000000 in
theorem e5_w1 (c : Dev nD) : W5 m ρ c (Proc.devRef .tc main_v56) = Cert.ReferenceIdeal.Read.val_main_v72 (F := Ideal) (m ((c : Thread nD τ).loc main_arg2)) := by
  dsimp only [W5, hostOps2]
  after_results
  rw [Cert.KCarry.c4_arg2 m ρ c]
  rfl
set_option maxHeartbeats 4000000 in
theorem e5_b1 (c : Dev nD) : W5 m ρ c (Proc.devRef .tc main_v58) = Cert.ReferenceIdeal.Read.val_main_v75 (F := Ideal) (m ((c : Thread nD τ).loc main_arg3)) := by
  dsimp only [W5, hostOps2]
  after_results
  rw [Cert.KCarry.c4_arg3 m ρ c]
  rfl
set_option maxHeartbeats 4000000 in
theorem e5_w2 (c : Dev nD) : W5 m ρ c (Proc.devRef .tc main_v60) = Cert.ReferenceIdeal.Read.val_main_v81 (F := Ideal) (m ((c : Thread nD τ).loc main_arg4)) := by
  dsimp only [W5, hostOps2]
  after_results
  rw [Cert.KCarry.c4_arg4 m ρ c]
  rfl
set_option maxHeartbeats 4000000 in
theorem e5_b2 (c : Dev nD) : W5 m ρ c (Proc.devRef .tc main_v62) = Cert.ReferenceIdeal.Read.val_main_v84 (F := Ideal) (m ((c : Thread nD τ).loc main_arg5)) := by
  dsimp only [W5, hostOps2]
  after_results
  rw [Cert.KCarry.c4_arg5 m ρ c]
  rfl

set_option maxHeartbeats 4000000 in
/-- The aggregated features entering launch 3: the shared aggregation of the previous launch's result and the edge list. -/
theorem e7_a (c : Dev nD) : W7 m ρ c (Proc.devRef .tc main_v74)
    = Cert.ReferenceIdeal.Read.val_main_v14 (F := Ideal) (W6 m ρ c (Proc.devRef .tc main_v63)) (m ((c : Thread nD τ).loc main_arg1)) := by
  dsimp only [W7, hostOps3]
  after_results
  rw [Cert.KCarry.c6_v1 m ρ c, Cert.KCarry.c6_v3 m ρ c]
  rfl
set_option maxHeartbeats 4000000 in
theorem e7_w1 (c : Dev nD) : W7 m ρ c (Proc.devRef .tc main_v76) = Cert.ReferenceIdeal.Read.val_main_v100 (F := Ideal) (m ((c : Thread nD τ).loc main_arg2)) := by
  dsimp only [W7, hostOps3]
  after_results
  rw [Cert.KCarry.c6_arg2 m ρ c]
  rfl
set_option maxHeartbeats 4000000 in
theorem e7_b1 (c : Dev nD) : W7 m ρ c (Proc.devRef .tc main_v78) = Cert.ReferenceIdeal.Read.val_main_v103 (F := Ideal) (m ((c : Thread nD τ).loc main_arg3)) := by
  dsimp only [W7, hostOps3]
  after_results
  rw [Cert.KCarry.c6_arg3 m ρ c]
  rfl
set_option maxHeartbeats 4000000 in
theorem e7_w2 (c : Dev nD) : W7 m ρ c (Proc.devRef .tc main_v80) = Cert.ReferenceIdeal.Read.val_main_v109 (F := Ideal) (m ((c : Thread nD τ).loc main_arg4)) := by
  dsimp only [W7, hostOps3]
  after_results
  rw [Cert.KCarry.c6_arg4 m ρ c]
  rfl
set_option maxHeartbeats 4000000 in
theorem e7_b2 (c : Dev nD) : W7 m ρ c (Proc.devRef .tc main_v82) = Cert.ReferenceIdeal.Read.val_main_v112 (F := Ideal) (m ((c : Thread nD τ).loc main_arg5)) := by
  dsimp only [W7, hostOps3]
  after_results
  rw [Cert.KCarry.c6_arg5 m ρ c]
  rfl

end Cert.KEntry

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.Spec.lean ====
/-
  The node functions of the graph encoder, as functions of whole arrays of extended reals, for any number A of
  node rows.

  * One message-passing layer's update is a two-layer perceptron applied to every row: with a the aggregated
    features, row r of the result is  max(a_r · W1 + b1, 0) · W2 + b2,  every product a sum over the 64 hidden
    coordinates.
  * The read-out projects every row, z_r = h_r · Wr + br, and divides it by max(sqrt(Σ_k z_r(k)²), ε), the ε
    one fixed single-precision number.

  Both are ROW-LOCAL: row r of the result depends on row r of the operand only. So applying either to a run of
  rows picked out of a taller array gives the same rows picked out of the result on the taller array
  (mlp_rows, proj_rows): a tile of rows may be processed by itself.
-/
import proofs.«142178_j54185307406769_1_alg».proof.Proof.LibMatmul

noncomputable section

open scoped BigOperators

namespace Cert.Spec

open Idealize.ShloMosaic Idealize.ShloMosaic.ValueIdx Cert.LibMatmul

/-- An A × B array of extended reals. -/
abbrev Arr2 (A B : Nat) : Type := (⟨2, ![A, B]⟩ : Shape).Idx → EReal
/-- A length-A array of extended reals. -/
abbrev Arr1 (A : Nat) : Type := (⟨1, ![A]⟩ : Shape).Idx → EReal

/-- The hidden activations: max(a · W1 + b1, 0), entry by entry. -/
def hidden {A : Nat} (a : Arr2 A 64) (w1 : Arr2 64 64) (b1 : Arr1 64) : Arr2 A 64 :=
  fun j => max (MM a w1 j + b1 (ix1 (j 1))) (Ideal.ofBits .f32 0x00000000#32)

/-- The perceptron: hidden · W2 + b2. -/
def mlp {A : Nat} (a : Arr2 A 64) (w1 : Arr2 64 64) (b1 : Arr1 64) (w2 : Arr2 64 64) (b2 : Arr1 64) : Arr2 A 64 :=
  fun i => MM (hidden a w1 b1) w2 i + b2 (ix1 (i 1))

/-- The projection before it is normalized: h · Wr + br. -/
def lin {A : Nat} (h : Arr2 A 64) (wr : Arr2 64 32) (br : Arr1 32) : Arr2 A 32 :=
  fun i => MM h wr i + br (ix1 (i 1))

/-- The squared length of row r of an A × 32 array. -/
def sqlen {A : Nat} (z : Arr2 A 32) (r : Fin A) : EReal := ∑ k : Fin 32, z (ix2 r k) * z (ix2 r k)

/-- The normalized projection: every row of h · Wr + br over its length, the length kept above ε. -/
def proj {A : Nat} (h : Arr2 A 64) (wr : Arr2 64 32) (br : Arr1 32) : Arr2 A 32 :=
  fun i => Ideal.div (lin h wr br i)
    (max (Ideal.sqrt (sqlen (lin h wr br) (i 0))) (Ideal.ofBits .f32 0x2B8CBCCC#32))

/-- The rows f(0), f(1), … of an array, as an array of their own. -/
def rows {A B C : Nat} (f : Fin B → Fin A) (a : Arr2 A C) : Arr2 B C := fun y => a (ix2 (f (y 0)) (y 1))

theorem rows_apply {A B C : Nat} (f : Fin B → Fin A) (a : Arr2 A C) (p : Fin B) (q : Fin C) :
    rows f a (ix2 p q) = a (ix2 (f p) q) := rfl

/-- A matrix product of picked rows is the picked rows of the product. -/
theorem MM_rows {A B K C : Nat} (f : Fin B → Fin A) (a : Arr2 A K) (w : Arr2 K C) :
    MM (rows f a) w = rows f (MM a w) := rfl

theorem hidden_rows {A B : Nat} (f : Fin B → Fin A) (a : Arr2 A 64) (w1 : Arr2 64 64) (b1 : Arr1 64) :
    hidden (rows f a) w1 b1 = rows f (hidden a w1 b1) := rfl

/-- The perceptron of picked rows is the picked rows of the perceptron. -/
theorem mlp_rows {A B : Nat} (f : Fin B → Fin A) (a : Arr2 A 64) (w1 : Arr2 64 64) (b1 : Arr1 64) (w2 : Arr2 64 64)
    (b2 : Arr1 64) : mlp (rows f a) w1 b1 w2 b2 = rows f (mlp a w1 b1 w2 b2) := rfl

theorem lin_rows {A B : Nat} (f : Fin B → Fin A) (h : Arr2 A 64) (wr : Arr2 64 32) (br : Arr1 32) :
    lin (rows f h) wr br = rows f (lin h wr br) := rfl

/-- The normalized projection of picked rows is the picked rows of the normalized projection. -/
theorem proj_rows {A B : Nat} (f : Fin B → Fin A) (h : Arr2 A 64) (wr : Arr2 64 32) (br : Arr1 32) :
    proj (rows f h) wr br = rows f (proj h wr br) := rfl

end Cert.Spec

end
-- ==== Proof.LibCast.lean ====
/-
  Two reshapes read at an index, as functions: an array of shape [a] reshaped to the row shape [1, a] reads,
  at (u, j), its entry j; reshaped to the column shape [a, 1] it reads, at (r, u), its entry r. Stated for any
  proof of the reshape's shape condition, so that either program's own fact can be passed.
-/
import Idealize.ShloMosaic.Lib.ValueLayout

namespace Cert.LibCast

open Idealize.ShloMosaic Idealize.ShloMosaic.ValueIdx

variable {α : Type}

/-- An [a] array reshaped to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a] array reshaped to the row shape [1, a], as a function of the row index. -/
theorem shapeCast_row {a : ℕ} (s : (⟨1, ![a]⟩ : Shape).Idx → α) (h : (⟨1, ![a]⟩ : Shape).ShapeCasts ⟨2, ![1, a]⟩) :
    shapeCast ⟨2, ![1, a]⟩ s h = fun i => s (ix1 (i 1)) := by
  funext i
  exact (congrArg (shapeCast ⟨2, ![1, a]⟩ s h) (eq_ix2 i)).trans (shapeCast_a_1a_apply s h (i 0) (i 1))

/-- An [a] array reshaped to the column shape [a, 1], as a function of the column index. -/
theorem shapeCast_col {a : ℕ} (d : (⟨1, ![a]⟩ : Shape).Idx → α) (h : (⟨1, ![a]⟩ : Shape).ShapeCasts ⟨2, ![a, 1]⟩) :
    shapeCast ⟨2, ![a, 1]⟩ d h = fun i => d (ix1 (i 0)) := by
  funext i
  exact (congrArg (shapeCast ⟨2, ![a, 1]⟩ d h) (eq_ix2 i)).trans (shapeCast_a_a1_apply d h (i 0) (i 1))

end Cert.LibCast
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.KBody.lean ====
/-
  What each kernel body stores, as a function of the tiles it loads, at the ideal values.

  The four message-passing kernels compute, on a tile of 5000 node rows, two matrix products into zero
  accumulators with a bias row added after each and a maximum with zero in between; a change of float format is
  the identity on the ideal values, so this is the perceptron of Spec applied to the tile.  The read-out kernel
  computes one such product plus bias, sums the squares along every row, takes the square root, keeps it above
  ε and divides: the normalized projection of Spec applied to the tile.
-/
import proofs.«142178_j54185307406769_1_alg».proof.Proof.Gen.KernelIdeal.Skeleton
import proofs.«142178_j54185307406769_1_alg».proof.Proof.Spec
import proofs.«142178_j54185307406769_1_alg».proof.Proof.LibCast
import proofs.«142178_j54185307406769_1_alg».proof.Proof.LibRowOps

noncomputable section

open scoped BigOperators

namespace Cert.KBody

open Cert.KernelIdeal Cert.KernelIdeal.Gen Idealize.ShloMosaic Idealize.ShloMosaic.ValueIdx
open Cert.Spec Cert.LibMatmul Cert.LibRowOps

/-- A narrowing of the float format does nothing to an ideal value. -/
theorem truncf_fun {s : Shape} {φ ψ : FTy} (a : FVec Ideal s φ) (h : ψ.bits < φ.bits) :
    (truncf ψ a h : s.Idx → EReal) = a := rfl

/-- Tile 0 of the perceptron: the body's stored value is the perceptron of the loaded row tile. -/
theorem mlp_payload0 (x0 : FVec Ideal S5000x64 .f32) (x1 : FVec Ideal S64x64 .f32) (x2 : FVec Ideal S64 .f32)
    (x3 : FVec Ideal S64x64 .f32) (x4 : FVec Ideal S64 .f32) :
    k0_pay1 (F := Ideal) x0 x1 x2 x3 x4 = mlp x0 x1 x2 x3 x4 := by
  unfold k0_pay1
  simp only [matmul, shapeCast_self, truncf_fun,
    matmul_zero_eq dot_S5000x64_S64x64_S5000x64_1_0_0_1_n_n rfl rfl rfl rfl rfl rfl, row_bcast]
  rfl

/-- Tile 1 of the perceptron: the body's stored value is the perceptron of the loaded row tile. -/
theorem mlp_payload1 (x0 : FVec Ideal S5000x64 .f32) (x1 : FVec Ideal S64x64 .f32) (x2 : FVec Ideal S64 .f32)
    (x3 : FVec Ideal S64x64 .f32) (x4 : FVec Ideal S64 .f32) :
    k1_pay1 (F := Ideal) x0 x1 x2 x3 x4 = mlp x0 x1 x2 x3 x4 := by
  unfold k1_pay1
  simp only [matmul, shapeCast_self, truncf_fun,
    matmul_zero_eq dot_S5000x64_S64x64_S5000x64_1_0_0_1_n_n rfl rfl rfl rfl rfl rfl, row_bcast]
  rfl

/-- Tile 2 of the perceptron: the body's stored value is the perceptron of the loaded row tile. -/
theorem mlp_payload2 (x0 : FVec Ideal S5000x64 .f32) (x1 : FVec Ideal S64x64 .f32) (x2 : FVec Ideal S64 .f32)
    (x3 : FVec Ideal S64x64 .f32) (x4 : FVec Ideal S64 .f32) :
    k2_pay1 (F := Ideal) x0 x1 x2 x3 x4 = mlp x0 x1 x2 x3 x4 := by
  unfold k2_pay1
  simp only [matmul, shapeCast_self, truncf_fun,
    matmul_zero_eq dot_S5000x64_S64x64_S5000x64_1_0_0_1_n_n rfl rfl rfl rfl rfl rfl, row_bcast]
  rfl

/-- Tile 3 of the perceptron: the body's stored value is the perceptron of the loaded row tile. -/
theorem mlp_payload3 (x0 : FVec Ideal S5000x64 .f32) (x1 : FVec Ideal S64x64 .f32) (x2 : FVec Ideal S64 .f32)
    (x3 : FVec Ideal S64x64 .f32) (x4 : FVec Ideal S64 .f32) :
    k3_pay1 (F := Ideal) x0 x1 x2 x3 x4 = mlp x0 x1 x2 x3 x4 := by
  unfold k3_pay1
  simp only [matmul, shapeCast_self, truncf_fun,
    matmul_zero_eq dot_S5000x64_S64x64_S5000x64_1_0_0_1_n_n rfl rfl rfl rfl rfl rfl, row_bcast]
  rfl

/-- The read-out tile: the body's stored value is the normalized projection of the loaded row tile. -/
theorem proj_payload (x0 : FVec Ideal S5000x64 .f32) (x1 : FVec Ideal S64x32 .f32) (x2 : FVec Ideal S32 .f32) :
    k4_pay1 (F := Ideal) x0 x1 x2 = proj x0 x1 x2 := by
  unfold k4_pay1
  simp only [matmul, shapeCast_self, truncf_fun,
    matmul_zero_eq dot_S5000x64_S64x32_S5000x32_1_0_0_1_n_n rfl rfl rfl rfl rfl rfl, row_bcast, col_bcast,
    Cert.LibCast.shapeCast_col]
  rw [rowsum]
  rfl

end Cert.KBody

end
-- ==== Proof.Tile.lean ====
/-
  The row tiling shared by the five launches: tile t of 5000 rows starts at row 5000 · t of the 50000 node rows.
-/
import proofs.«142178_j54185307406769_1_alg».proof.Proof.Spec

namespace Cert.Spec

/-- Row p of tile t is row 5000 · t + p of the whole array. -/
def tileRow (t : Nat) (ht : t < 10) (p : Fin 5000) : Fin 50000 := ⟨t * 5000 + p.val, by have := p.isLt; omega⟩

theorem tileRow_val (t : Nat) (ht : t < 10) (p : Fin 5000) : (tileRow t ht p).val = t * 5000 + p.val := rfl

end Cert.Spec
-- ==== Proof.KBlocks0.lean ====
/-
  Launch 0 of the idealized kernel program, from its tiles to its whole result array.  The body is the perceptron of one message-passing layer.
  The launch walks ten grid points; point t stages rows 5000 t … 5000 t + 4999 of the node array and the whole of
  every small operand, runs the body, and writes the body's tile back to the same rows of the result.  The body's
  function is row-local, so the tile written at point t is those rows of the function applied to the whole
  array; the ten tiles cover all 50000 rows; hence the result array ends as that function of the arrays the
  launch found, whatever they are (they are a parameter here).
-/
import proofs.«142178_j54185307406769_1_alg».proof.Proof.Gen.KernelIdeal.Frame
import proofs.«142178_j54185307406769_1_alg».proof.Proof.KBody
import proofs.«142178_j54185307406769_1_alg».proof.Proof.Tile

set_option maxRecDepth 16384

noncomputable section

namespace Cert.KBlocks0

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the ten grid points: the node operand and the result move one tile per point,
    the small operands stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ t.val < 10 :=
  (by decide +kernel : ∀ t : Fin grid0.N, _)

/-- Every tile of the result is some point's. -/
theorem idx_onto : ∀ q : Fin 10, ∃ t : Fin cfg0.N, win0_5.index t = ![q.val, 0] :=
  (by decide +kernel : ∀ q : Fin 10, ∃ t : Fin grid0.N, win0_5.index t = ![q.val, 0])

set_option maxHeartbeats 2000000 in  -- the buffer table is looked up at every block read
/-- What point t writes back is tile t of the perceptron of the arrays the launch found. -/
theorem flushed_eq (c : Dev nD) (t : Fin cfg0.N) :
    (dat0 V c).flushed 5 t = ((cfg0.win 5).blk t).view.read (Elt Ideal) (mlp (V c main_v14) (V c main_v16) (V c main_v18) (V c main_v20) (V c main_v22)) := by
  show (cfg0.win 5).cut (grid0.coords t) ((dat0 V c).after 5 t) = _
  rw [after0_5]
  unfold out0_5
  rw [View.canon_unit_zero hz2]
  simp only [View.ld_unit_zero (S := S5000x64) hz2, View.ld_unit_zero (S := S64x64) hz2, View.ld_unit_zero (S := S64) hz1]
  rw [Cert.KBody.mlp_payload0]
  obtain ⟨e00, e01, e10, e11, e20, e30, e31, e40, e50, e51, ht⟩ := idx_facts t
  have h0 : (iblk0 V c 0 t : S5000x64.Idx → EReal) = rows (tileRow t.val ht) (V c main_v14) := by
    funext y
    show V c main_v14 (((cfg0.win 0).blk t).view.emb y) = V c main_v14 (ix2 (tileRow t.val ht (y 0)) (y 1))
    refine congrArg (V c main_v14) (funext fun a => Fin.ext ?_)
    match a with
    | ⟨0, _⟩ => show win0_0.index t (0 : Fin 2) * 5000 + 1 * (y 0).val = t.val * 5000 + (y 0).val; omega
    | ⟨1, _⟩ => show win0_0.index t (1 : Fin 2) * 64 + 1 * (y 1).val = (y 1).val; omega
  have h1 : (iblk0 V c 1 t : S64x64.Idx → EReal) = V c main_v16 := by
    funext y
    show V c main_v16 (((cfg0.win 1).blk t).view.emb y) = V c main_v16 y
    refine congrArg (V c main_v16) (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  have h2 : (iblk0 V c 2 t : S64.Idx → EReal) = V c main_v18 := by
    funext y
    show V c main_v18 (((cfg0.win 2).blk t).view.emb y) = V c main_v18 y
    refine congrArg (V c main_v18) (funext fun a => Fin.ext ?_)
    match a with
    | ⟨0, _⟩ => show win0_2.index t (0 : Fin 1) * 64 + 1 * (y 0).val = (y 0).val; omega
  have h3 : (iblk0 V c 3 t : S64x64.Idx → EReal) = V c main_v20 := by
    funext y
    show V c main_v20 (((cfg0.win 3).blk t).view.emb y) = V c main_v20 y
    refine congrArg (V c main_v20) (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  have h4 : (iblk0 V c 4 t : S64.Idx → EReal) = V c main_v22 := by
    funext y
    show V c main_v22 (((cfg0.win 4).blk t).view.emb y) = V c main_v22 y
    refine congrArg (V c main_v22) (funext fun a => Fin.ext ?_)
    match a with
    | ⟨0, _⟩ => show win0_4.index t (0 : Fin 1) * 64 + 1 * (y 0).val = (y 0).val; omega
  rw [h0, h1, h2, h3, h4, mlp_rows]
  funext j
  show (mlp (V c main_v14) (V c main_v16) (V c main_v18) (V c main_v20) (V c main_v22)) (ix2 (tileRow t.val ht (j 0)) (j 1)) = (mlp (V c main_v14) (V c main_v16) (V c main_v18) (V c main_v20) (V c main_v22)) (((cfg0.win 5).blk t).view.emb j)
  refine congrArg (mlp (V c main_v14) (V c main_v16) (V c main_v18) (V c main_v20) (V c main_v22)) (funext fun a => Fin.ext ?_)
  match a with
  | ⟨0, _⟩ => show t.val * 5000 + (j 0).val = win0_5.index t (0 : Fin 2) * 5000 + 1 * (j 0).val; omega
  | ⟨1, _⟩ => show (j 1).val = win0_5.index t (1 : Fin 2) * 64 + 1 * (j 1).val; omega

/-- An index of the result array is in point t's tile iff each coordinate is in the tile's range on its axis. -/
theorem mem_blk (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v23).slice (win0_5.rect t)).set ↔ _
  rw [View.set_slice_whole, Rect.mem_set_unit]
  exact Iff.rfl

/-- Row r lies in the tile of point r / 5000. -/
theorem cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The result array after the launch is the perceptron of the arrays the launch found. -/
theorem final (c : Dev nD) : (dat0 V c).arrAt 5 cfg0.N = (mlp (V c main_v14) (V c main_v16) (V c main_v18) (V c main_v20) (V c main_v22)) :=
  (dat0 V c).arrAt_eq_of_cover 5 _ (fun t _ => flushed_eq V c t) cover

end Cert.KBlocks0

end
-- ==== Proof.KBlocks1.lean ====
/-
  Launch 1 of the idealized kernel program, from its tiles to its whole result array.  The body is the perceptron of one message-passing layer.
  The launch walks ten grid points; point t stages rows 5000 t … 5000 t + 4999 of the node array and the whole of
  every small operand, runs the body, and writes the body's tile back to the same rows of the result.  The body's
  function is row-local, so the tile written at point t is those rows of the function applied to the whole
  array; the ten tiles cover all 50000 rows; hence the result array ends as that function of the arrays the
  launch found, whatever they are (they are a parameter here).
-/
import proofs.«142178_j54185307406769_1_alg».proof.Proof.Gen.KernelIdeal.Frame
import proofs.«142178_j54185307406769_1_alg».proof.Proof.KBody
import proofs.«142178_j54185307406769_1_alg».proof.Proof.Tile

set_option maxRecDepth 16384

noncomputable section

namespace Cert.KBlocks1

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the ten grid points: the node operand and the result move one tile per point,
    the small operands stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ t.val < 10 :=
  (by decide +kernel : ∀ t : Fin grid1.N, _)

/-- Every tile of the result is some point's. -/
theorem idx_onto : ∀ q : Fin 10, ∃ t : Fin cfg1.N, win1_5.index t = ![q.val, 0] :=
  (by decide +kernel : ∀ q : Fin 10, ∃ t : Fin grid1.N, win1_5.index t = ![q.val, 0])

set_option maxHeartbeats 2000000 in  -- the buffer table is looked up at every block read
/-- What point t writes back is tile t of the perceptron of the arrays the launch found. -/
theorem flushed_eq (c : Dev nD) (t : Fin cfg1.N) :
    (dat1 V c).flushed 5 t = ((cfg1.win 5).blk t).view.read (Elt Ideal) (mlp (V c main_v34) (V c main_v36) (V c main_v38) (V c main_v40) (V c main_v42)) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S64x64) hz2, View.ld_unit_zero (S := S64) hz1]
  rw [Cert.KBody.mlp_payload1]
  obtain ⟨e00, e01, e10, e11, e20, e30, e31, e40, e50, e51, ht⟩ := idx_facts t
  have h0 : (iblk1 V c 0 t : S5000x64.Idx → EReal) = rows (tileRow t.val ht) (V c main_v34) := by
    funext y
    show V c main_v34 (((cfg1.win 0).blk t).view.emb y) = V c main_v34 (ix2 (tileRow t.val ht (y 0)) (y 1))
    refine congrArg (V c main_v34) (funext fun a => Fin.ext ?_)
    match a with
    | ⟨0, _⟩ => show win1_0.index t (0 : Fin 2) * 5000 + 1 * (y 0).val = t.val * 5000 + (y 0).val; omega
    | ⟨1, _⟩ => show win1_0.index t (1 : Fin 2) * 64 + 1 * (y 1).val = (y 1).val; omega
  have h1 : (iblk1 V c 1 t : S64x64.Idx → EReal) = V c main_v36 := by
    funext y
    show V c main_v36 (((cfg1.win 1).blk t).view.emb y) = V c main_v36 y
    refine congrArg (V c main_v36) (funext fun a => Fin.ext ?_)
    match a with
    | ⟨0, _⟩ => show win1_1.index t (0 : Fin 2) * 64 + 1 * (y 0).val = (y 0).val; omega
    | ⟨1, _⟩ => show win1_1.index t (1 : Fin 2) * 64 + 1 * (y 1).val = (y 1).val; omega
  have h2 : (iblk1 V c 2 t : S64.Idx → EReal) = V c main_v38 := by
    funext y
    show V c main_v38 (((cfg1.win 2).blk t).view.emb y) = V c main_v38 y
    refine congrArg (V c main_v38) (funext fun a => Fin.ext ?_)
    match a with
    | ⟨0, _⟩ => show win1_2.index t (0 : Fin 1) * 64 + 1 * (y 0).val = (y 0).val; omega
  have h3 : (iblk1 V c 3 t : S64x64.Idx → EReal) = V c main_v40 := by
    funext y
    show V c main_v40 (((cfg1.win 3).blk t).view.emb y) = V c main_v40 y
    refine congrArg (V c main_v40) (funext fun a => Fin.ext ?_)
    match a with
    | ⟨0, _⟩ => show win1_3.index t (0 : Fin 2) * 64 + 1 * (y 0).val = (y 0).val; omega
    | ⟨1, _⟩ => show win1_3.index t (1 : Fin 2) * 64 + 1 * (y 1).val = (y 1).val; omega
  have h4 : (iblk1 V c 4 t : S64.Idx → EReal) = V c main_v42 := by
    funext y
    show V c main_v42 (((cfg1.win 4).blk t).view.emb y) = V c main_v42 y
    refine congrArg (V c main_v42) (funext fun a => Fin.ext ?_)
    match a with
    | ⟨0, _⟩ => show win1_4.index t (0 : Fin 1) * 64 + 1 * (y 0).val = (y 0).val; omega
  rw [h0, h1, h2, h3, h4, mlp_rows]
  funext j
  show (mlp (V c main_v34) (V c main_v36) (V c main_v38) (V c main_v40) (V c main_v42)) (ix2 (tileRow t.val ht (j 0)) (j 1)) = (mlp (V c main_v34) (V c main_v36) (V c main_v38) (V c main_v40) (V c main_v42)) (((cfg1.win 5).blk t).view.emb j)
  refine congrArg (mlp (V c main_v34) (V c main_v36) (V c main_v38) (V c main_v40) (V c main_v42)) (funext fun a => Fin.ext ?_)
  match a with
  | ⟨0, _⟩ => show t.val * 5000 + (j 0).val = win1_5.index t (0 : Fin 2) * 5000 + 1 * (j 0).val; omega
  | ⟨1, _⟩ => show (j 1).val = win1_5.index t (1 : Fin 2) * 64 + 1 * (j 1).val; omega

/-- An index of the result array is in point t's tile iff each coordinate is in the tile's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v43).slice (win1_5.rect t)).set ↔ _
  rw [View.set_slice_whole, Rect.mem_set_unit]
  exact Iff.rfl

/-- Row r lies in the tile of point r / 5000. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The result array after the launch is the perceptron of the arrays the launch found. -/
theorem final (c : Dev nD) : (dat1 V c).arrAt 5 cfg1.N = (mlp (V c main_v34) (V c main_v36) (V c main_v38) (V c main_v40) (V c main_v42)) :=
  (dat1 V c).arrAt_eq_of_cover 5 _ (fun t _ => flushed_eq V c t) cover

end Cert.KBlocks1

end
-- ==== Proof.KBlocks2.lean ====
/-
  Launch 2 of the idealized kernel program, from its tiles to its whole result array.  The body is the perceptron of one message-passing layer.
  The launch walks ten grid points; point t stages rows 5000 t … 5000 t + 4999 of the node array and the whole of
  every small operand, runs the body, and writes the body's tile back to the same rows of the result.  The body's
  function is row-local, so the tile written at point t is those rows of the function applied to the whole
  array; the ten tiles cover all 50000 rows; hence the result array ends as that function of the arrays the
  launch found, whatever they are (they are a parameter here).
-/
import proofs.«142178_j54185307406769_1_alg».proof.Proof.Gen.KernelIdeal.Frame
import proofs.«142178_j54185307406769_1_alg».proof.Proof.KBody
import proofs.«142178_j54185307406769_1_alg».proof.Proof.Tile

set_option maxRecDepth 16384

noncomputable section

namespace Cert.KBlocks2

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the ten grid points: the node operand and the result move one tile per point,
    the small operands stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0
    ∧ t.val < 10 :=
  (by decide +kernel : ∀ t : Fin grid2.N, _)

/-- Every tile of the result is some point's. -/
theorem idx_onto : ∀ q : Fin 10, ∃ t : Fin cfg2.N, win2_5.index t = ![q.val, 0] :=
  (by decide +kernel : ∀ q : Fin 10, ∃ t : Fin grid2.N, win2_5.index t = ![q.val, 0])

set_option maxHeartbeats 2000000 in  -- the buffer table is looked up at every block read
/-- What point t writes back is tile t of the perceptron of the arrays the launch found. -/
theorem flushed_eq (c : Dev nD) (t : Fin cfg2.N) :
    (dat2 V c).flushed 5 t = ((cfg2.win 5).blk t).view.read (Elt Ideal) (mlp (V c main_v54) (V c main_v56) (V c main_v58) (V c main_v60) (V c main_v62)) := by
  show (cfg2.win 5).cut (grid2.coords t) ((dat2 V c).after 5 t) = _
  rw [after2_5]
  unfold out2_5
  rw [View.canon_unit_zero hz2]
  simp only [View.ld_unit_zero (S := S5000x64) hz2, View.ld_unit_zero (S := S64x64) hz2, View.ld_unit_zero (S := S64) hz1]
  rw [Cert.KBody.mlp_payload2]
  obtain ⟨e00, e01, e10, e11, e20, e30, e31, e40, e50, e51, ht⟩ := idx_facts t
  have h0 : (iblk2 V c 0 t : S5000x64.Idx → EReal) = rows (tileRow t.val ht) (V c main_v54) := by
    funext y
    show V c main_v54 (((cfg2.win 0).blk t).view.emb y) = V c main_v54 (ix2 (tileRow t.val ht (y 0)) (y 1))
    refine congrArg (V c main_v54) (funext fun a => Fin.ext ?_)
    match a with
    | ⟨0, _⟩ => show win2_0.index t (0 : Fin 2) * 5000 + 1 * (y 0).val = t.val * 5000 + (y 0).val; omega
    | ⟨1, _⟩ => show win2_0.index t (1 : Fin 2) * 64 + 1 * (y 1).val = (y 1).val; omega
  have h1 : (iblk2 V c 1 t : S64x64.Idx → EReal) = V c main_v56 := by
    funext y
    show V c main_v56 (((cfg2.win 1).blk t).view.emb y) = V c main_v56 y
    refine congrArg (V c main_v56) (funext fun a => Fin.ext ?_)
    match a with
    | ⟨0, _⟩ => show win2_1.index t (0 : Fin 2) * 64 + 1 * (y 0).val = (y 0).val; omega
    | ⟨1, _⟩ => show win2_1.index t (1 : Fin 2) * 64 + 1 * (y 1).val = (y 1).val; omega
  have h2 : (iblk2 V c 2 t : S64.Idx → EReal) = V c main_v58 := by
    funext y
    show V c main_v58 (((cfg2.win 2).blk t).view.emb y) = V c main_v58 y
    refine congrArg (V c main_v58) (funext fun a => Fin.ext ?_)
    match a with
    | ⟨0, _⟩ => show win2_2.index t (0 : Fin 1) * 64 + 1 * (y 0).val = (y 0).val; omega
  have h3 : (iblk2 V c 3 t : S64x64.Idx → EReal) = V c main_v60 := by
    funext y
    show V c main_v60 (((cfg2.win 3).blk t).view.emb y) = V c main_v60 y
    refine congrArg (V c main_v60) (funext fun a => Fin.ext ?_)
    match a with
    | ⟨0, _⟩ => show win2_3.index t (0 : Fin 2) * 64 + 1 * (y 0).val = (y 0).val; omega
    | ⟨1, _⟩ => show win2_3.index t (1 : Fin 2) * 64 + 1 * (y 1).val = (y 1).val; omega
  have h4 : (iblk2 V c 4 t : S64.Idx → EReal) = V c main_v62 := by
    funext y
    show V c main_v62 (((cfg2.win 4).blk t).view.emb y) = V c main_v62 y
    refine congrArg (V c main_v62) (funext fun a => Fin.ext ?_)
    match a with
    | ⟨0, _⟩ => show win2_4.index t (0 : Fin 1) * 64 + 1 * (y 0).val = (y 0).val; omega
  rw [h0, h1, h2, h3, h4, mlp_rows]
  funext j
  show (mlp (V c main_v54) (V c main_v56) (V c main_v58) (V c main_v60) (V c main_v62)) (ix2 (tileRow t.val ht (j 0)) (j 1)) = (mlp (V c main_v54) (V c main_v56) (V c main_v58) (V c main_v60) (V c main_v62)) (((cfg2.win 5).blk t).view.emb j)
  refine congrArg (mlp (V c main_v54) (V c main_v56) (V c main_v58) (V c main_v60) (V c main_v62)) (funext fun a => Fin.ext ?_)
  match a with
  | ⟨0, _⟩ => show t.val * 5000 + (j 0).val = win2_5.index t (0 : Fin 2) * 5000 + 1 * (j 0).val; omega
  | ⟨1, _⟩ => show (j 1).val = win2_5.index t (1 : Fin 2) * 64 + 1 * (j 1).val; omega

/-- An index of the result array is in point t's tile iff each coordinate is in the tile's range on its axis. -/
theorem mem_blk (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v63).slice (win2_5.rect t)).set ↔ _
  rw [View.set_slice_whole, Rect.mem_set_unit]
  exact Iff.rfl

/-- Row r lies in the tile of point r / 5000. -/
theorem cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The result array after the launch is the perceptron of the arrays the launch found. -/
theorem final (c : Dev nD) : (dat2 V c).arrAt 5 cfg2.N = (mlp (V c main_v54) (V c main_v56) (V c main_v58) (V c main_v60) (V c main_v62)) :=
  (dat2 V c).arrAt_eq_of_cover 5 _ (fun t _ => flushed_eq V c t) cover

end Cert.KBlocks2

end
-- ==== Proof.KBlocks3.lean ====
/-
  Launch 3 of the idealized kernel program, from its tiles to its whole result array.  The body is the perceptron of one message-passing layer.
  The launch walks ten grid points; point t stages rows 5000 t … 5000 t + 4999 of the node array and the whole of
  every small operand, runs the body, and writes the body's tile back to the same rows of the result.  The body's
  function is row-local, so the tile written at point t is those rows of the function applied to the whole
  array; the ten tiles cover all 50000 rows; hence the result array ends as that function of the arrays the
  launch found, whatever they are (they are a parameter here).
-/
import proofs.«142178_j54185307406769_1_alg».proof.Proof.Gen.KernelIdeal.Frame
import proofs.«142178_j54185307406769_1_alg».proof.Proof.KBody
import proofs.«142178_j54185307406769_1_alg».proof.Proof.Tile

set_option maxRecDepth 16384

noncomputable section

namespace Cert.KBlocks3

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the ten grid points: the node operand and the result move one tile per point,
    the small operands stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0
    ∧ t.val < 10 :=
  (by decide +kernel : ∀ t : Fin grid3.N, _)

/-- Every tile of the result is some point's. -/
theorem idx_onto : ∀ q : Fin 10, ∃ t : Fin cfg3.N, win3_5.index t = ![q.val, 0] :=
  (by decide +kernel : ∀ q : Fin 10, ∃ t : Fin grid3.N, win3_5.index t = ![q.val, 0])

set_option maxHeartbeats 2000000 in  -- the buffer table is looked up at every block read
/-- What point t writes back is tile t of the perceptron of the arrays the launch found. -/
theorem flushed_eq (c : Dev nD) (t : Fin cfg3.N) :
    (dat3 V c).flushed 5 t = ((cfg3.win 5).blk t).view.read (Elt Ideal) (mlp (V c main_v74) (V c main_v76) (V c main_v78) (V c main_v80) (V c main_v82)) := by
  show (cfg3.win 5).cut (grid3.coords t) ((dat3 V c).after 5 t) = _
  rw [after3_5]
  unfold out3_5
  rw [View.canon_unit_zero hz2]
  simp only [View.ld_unit_zero (S := S5000x64) hz2, View.ld_unit_zero (S := S64x64) hz2, View.ld_unit_zero (S := S64) hz1]
  rw [Cert.KBody.mlp_payload3]
  obtain ⟨e00, e01, e10, e11, e20, e30, e31, e40, e50, e51, ht⟩ := idx_facts t
  have h0 : (iblk3 V c 0 t : S5000x64.Idx → EReal) = rows (tileRow t.val ht) (V c main_v74) := by
    funext y
    show V c main_v74 (((cfg3.win 0).blk t).view.emb y) = V c main_v74 (ix2 (tileRow t.val ht (y 0)) (y 1))
    refine congrArg (V c main_v74) (funext fun a => Fin.ext ?_)
    match a with
    | ⟨0, _⟩ => show win3_0.index t (0 : Fin 2) * 5000 + 1 * (y 0).val = t.val * 5000 + (y 0).val; omega
    | ⟨1, _⟩ => show win3_0.index t (1 : Fin 2) * 64 + 1 * (y 1).val = (y 1).val; omega
  have h1 : (iblk3 V c 1 t : S64x64.Idx → EReal) = V c main_v76 := by
    funext y
    show V c main_v76 (((cfg3.win 1).blk t).view.emb y) = V c main_v76 y
    refine congrArg (V c main_v76) (funext fun a => Fin.ext ?_)
    match a with
    | ⟨0, _⟩ => show win3_1.index t (0 : Fin 2) * 64 + 1 * (y 0).val = (y 0).val; omega
    | ⟨1, _⟩ => show win3_1.index t (1 : Fin 2) * 64 + 1 * (y 1).val = (y 1).val; omega
  have h2 : (iblk3 V c 2 t : S64.Idx → EReal) = V c main_v78 := by
    funext y
    show V c main_v78 (((cfg3.win 2).blk t).view.emb y) = V c main_v78 y
    refine congrArg (V c main_v78) (funext fun a => Fin.ext ?_)
    match a with
    | ⟨0, _⟩ => show win3_2.index t (0 : Fin 1) * 64 + 1 * (y 0).val = (y 0).val; omega
  have h3 : (iblk3 V c 3 t : S64x64.Idx → EReal) = V c main_v80 := by
    funext y
    show V c main_v80 (((cfg3.win 3).blk t).view.emb y) = V c main_v80 y
    refine congrArg (V c main_v80) (funext fun a => Fin.ext ?_)
    match a with
    | ⟨0, _⟩ => show win3_3.index t (0 : Fin 2) * 64 + 1 * (y 0).val = (y 0).val; omega
    | ⟨1, _⟩ => show win3_3.index t (1 : Fin 2) * 64 + 1 * (y 1).val = (y 1).val; omega
  have h4 : (iblk3 V c 4 t : S64.Idx → EReal) = V c main_v82 := by
    funext y
    show V c main_v82 (((cfg3.win 4).blk t).view.emb y) = V c main_v82 y
    refine congrArg (V c main_v82) (funext fun a => Fin.ext ?_)
    match a with
    | ⟨0, _⟩ => show win3_4.index t (0 : Fin 1) * 64 + 1 * (y 0).val = (y 0).val; omega
  rw [h0, h1, h2, h3, h4, mlp_rows]
  funext j
  show (mlp (V c main_v74) (V c main_v76) (V c main_v78) (V c main_v80) (V c main_v82)) (ix2 (tileRow t.val ht (j 0)) (j 1)) = (mlp (V c main_v74) (V c main_v76) (V c main_v78) (V c main_v80) (V c main_v82)) (((cfg3.win 5).blk t).view.emb j)
  refine congrArg (mlp (V c main_v74) (V c main_v76) (V c main_v78) (V c main_v80) (V c main_v82)) (funext fun a => Fin.ext ?_)
  match a with
  | ⟨0, _⟩ => show t.val * 5000 + (j 0).val = win3_5.index t (0 : Fin 2) * 5000 + 1 * (j 0).val; omega
  | ⟨1, _⟩ => show (j 1).val = win3_5.index t (1 : Fin 2) * 64 + 1 * (j 1).val; omega

/-- An index of the result array is in point t's tile iff each coordinate is in the tile's range on its axis. -/
theorem mem_blk (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v83).slice (win3_5.rect t)).set ↔ _
  rw [View.set_slice_whole, Rect.mem_set_unit]
  exact Iff.rfl

/-- Row r lies in the tile of point r / 5000. -/
theorem cover (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  obtain ⟨t, ht⟩ := idx_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- The result array after the launch is the perceptron of the arrays the launch found. -/
theorem final (c : Dev nD) : (dat3 V c).arrAt 5 cfg3.N = (mlp (V c main_v74) (V c main_v76) (V c main_v78) (V c main_v80) (V c main_v82)) :=
  (dat3 V c).arrAt_eq_of_cover 5 _ (fun t _ => flushed_eq V c t) cover

end Cert.KBlocks3

end
-- ==== Proof.KBlocks4.lean ====
/-
  Launch 4 of the idealized kernel program, from its tiles to its whole result array.  The body is the normalized projection of the read-out.
  The launch walks ten grid points; point t stages rows 5000 t … 5000 t + 4999 of the node array and the whole of
  every small operand, runs the body, and writes the body's tile back to the same rows of the result.  The body's
  function is row-local, so the tile written at point t is those rows of the function applied to the whole
  array; the ten tiles cover all 50000 rows; hence the result array ends as that function of the arrays the
  launch found, whatever they are (they are a parameter here).
-/
import proofs.«142178_j54185307406769_1_alg».proof.Proof.Gen.KernelIdeal.Frame
import proofs.«142178_j54185307406769_1_alg».proof.Proof.KBody
import proofs.«142178_j54185307406769_1_alg».proof.Proof.Tile

set_option maxRecDepth 16384

noncomputable section

namespace Cert.KBlocks4

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the ten grid points: the node operand and the result move one tile per point,
    the small operands stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0
    ∧ t.val < 10 :=
  (by decide +kernel : ∀ t : Fin grid4.N, _)

/-- Every tile of the result is some point's. -/
theorem idx_onto : ∀ q : Fin 10, ∃ t : Fin cfg4.N, win4_3.index t = ![q.val, 0] :=
  (by decide +kernel : ∀ q : Fin 10, ∃ t : Fin grid4.N, win4_3.index t = ![q.val, 0])

set_option maxHeartbeats 2000000 in  -- the buffer table is looked up at every block read
/-- What point t writes back is tile t of the normalized projection of the arrays the launch found. -/
theorem flushed_eq (c : Dev nD) (t : Fin cfg4.N) :
    (dat4 V c).flushed 3 t = ((cfg4.win 3).blk t).view.read (Elt Ideal) (proj (V c main_v83) (V c main_arg6) (V c main_arg7)) := by
  show (cfg4.win 3).cut (grid4.coords t) ((dat4 V c).after 3 t) = _
  rw [after4_3]
  unfold out4_3
  rw [View.canon_unit_zero hz2]
  simp only [View.ld_unit_zero (S := S5000x64) hz2, View.ld_unit_zero (S := S64x32) hz2, View.ld_unit_zero (S := S32) hz1]
  rw [Cert.KBody.proj_payload]
  obtain ⟨e00, e01, e10, e11, e20, e30, e31, ht⟩ := idx_facts t
  have h0 : (iblk4 V c 0 t : S5000x64.Idx → EReal) = rows (tileRow t.val ht) (V c main_v83) := by
    funext y
    show V c main_v83 (((cfg4.win 0).blk t).view.emb y) = V c main_v83 (ix2 (tileRow t.val ht (y 0)) (y 1))
    refine congrArg (V c main_v83) (funext fun a => Fin.ext ?_)
    match a with
    | ⟨0, _⟩ => show win4_0.index t (0 : Fin 2) * 5000 + 1 * (y 0).val = t.val * 5000 + (y 0).val; omega
    | ⟨1, _⟩ => show win4_0.index t (1 : Fin 2) * 64 + 1 * (y 1).val = (y 1).val; omega
  have h1 : (iblk4 V c 1 t : S64x32.Idx → EReal) = V c main_arg6 := by
    funext y
    show V c main_arg6 (((cfg4.win 1).blk t).view.emb y) = V c main_arg6 y
    refine congrArg (V c main_arg6) (funext fun a => Fin.ext ?_)
    match a with
    | ⟨0, _⟩ => show win4_1.index t (0 : Fin 2) * 64 + 1 * (y 0).val = (y 0).val; omega
    | ⟨1, _⟩ => show win4_1.index t (1 : Fin 2) * 32 + 1 * (y 1).val = (y 1).val; omega
  have h2 : (iblk4 V c 2 t : S32.Idx → EReal) = V c main_arg7 := by
    funext y
    show V c main_arg7 (((cfg4.win 2).blk t).view.emb y) = V c main_arg7 y
    refine congrArg (V c main_arg7) (funext fun a => Fin.ext ?_)
    match a with
    | ⟨0, _⟩ => show win4_2.index t (0 : Fin 1) * 32 + 1 * (y 0).val = (y 0).val; omega
  rw [h0, h1, h2, proj_rows]
  funext j
  show (proj (V c main_v83) (V c main_arg6) (V c main_arg7)) (ix2 (tileRow t.val ht (j 0)) (j 1)) = (proj (V c main_v83) (V c main_arg6) (V c main_arg7)) (((cfg4.win 3).blk t).view.emb j)
  refine congrArg (proj (V c main_v83) (V c main_arg6) (V c main_arg7)) (funext fun a => Fin.ext ?_)
  match a with
  | ⟨0, _⟩ => show t.val * 5000 + (j 0).val = win4_3.index t (0 : Fin 2) * 5000 + 1 * (j 0).val; omega
  | ⟨1, _⟩ => show (j 1).val = win4_3.index t (1 : Fin 2) * 32 + 1 * (j 1).val; omega

/-- An index of the result array is in point t's tile iff each coordinate is in the tile's range on its axis. -/
theorem mem_blk (t : Fin cfg4.N) (i : S50000x32.Idx) :
    i ∈ ((cfg4.win 3).blk t).view.set ↔ ∀ a : Fin 2, win4_3.index t a * S5000x32.size a ≤ (i a).val ∧ (i a).val < win4_3.index t a * S5000x32.size a + S5000x32.size a := by
  show i ∈ ((View.whole main_v84).slice (win4_3.rect t)).set ↔ _
  rw [View.set_slice_whole, Rect.mem_set_unit]
  exact Iff.rfl

/-- Row r lies in the tile of point r / 5000. -/
theorem cover (i : S50000x32.Idx) :
    ∃ t : Fin cfg4.N, (cfg4.win 3).flush t = true ∧ i ∈ ((cfg4.win 3).blk t).view.set := by
  have hi0 : (i 0).val < 50000 := (i 0).isLt
  have hi1 : (i 1).val < 32 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 32 ≤ (i 1).val ∧ (i 1).val < win4_3.index t (1 : Fin 2) * 32 + 32; omega

/-- The result array after the launch is the normalized projection of the arrays the launch found. -/
theorem final (c : Dev nD) : (dat4 V c).arrAt 3 cfg4.N = (proj (V c main_v83) (V c main_arg6) (V c main_arg7)) :=
  (dat4 V c).arrAt_eq_of_cover 3 _ (fun t _ => flushed_eq V c t) cover

end Cert.KBlocks4

end
-- ==== Proof.LibBcastInDim.lean ====
/-
  The host's `broadcast_in_dim` in the four arrangements a row-wise reference uses, read as functions of the
  index: a scalar to any shape; a length-b array to one row and then down a rows; a length-a array to a column;
  a column across b columns.
-/
import Idealize.ShloMosaic.Lib.Pipeline.Value
import Idealize.ShloMosaic.Lib.ValueLayout

namespace Cert.LibBcastInDim

open Idealize.ShloMosaic Idealize.ShloMosaic.ValueIdx

variable {α : Type}

/-- A scalar broadcast to any shape holds the scalar everywhere. -/
theorem bid_scalar {t : Shape} (x : (⟨0, ![]⟩ : Shape).Idx → α)
    (h : (⟨0, ![]⟩ : Shape).BroadcastsInDim t (![] : Fin 0 → Fin t.rank)) :
    broadcastInDim t ![] h x = fun _ => x ix0 := by
  funext j
  exact broadcastInDim_apply _ h x j ix0 (fun a => a.elim0)

/-- A length-b array placed as one row and broadcast down a rows holds, at (p, c), its entry c. -/
theorem bid_row {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) :
    broadcastInDim ⟨2, ![a, b]⟩ ![0, 1] h2 (broadcastInDim ⟨2, ![1, b]⟩ ![1] h1 v) = fun i => v (ix1 (i 1)) := by
  funext i
  have hlt : (i 1).val < b := (i 1).isLt
  refine (broadcastInDim_apply _ h2 _ i (ix2 (0 : Fin 1) (i 1)) fun ax => ?_).trans
    (broadcastInDim_apply _ h1 v (ix2 (0 : Fin 1) (i 1)) (ix1 (i 1)) fun ax => ?_)
  · match ax with
    | ⟨0, _⟩ => rfl
    | ⟨1, _⟩ =>
      show (i 1).val = if b = 1 then 0 else (i 1).val
      split
      · omega
      · rfl
  · match ax with
    | ⟨0, _⟩ =>
      show (i 1).val = if b = 1 then 0 else (i 1).val
      split
      · omega
      · rfl

/-- A length-a array placed as a column holds, at (r, u), its entry r. -/
theorem bid_col {a : ℕ} (v : (⟨1, ![a]⟩ : Shape).Idx → α)
    (h : (⟨1, ![a]⟩ : Shape).BroadcastsInDim ⟨2, ![a, 1]⟩ (![0] : Fin 1 → Fin 2)) :
    broadcastInDim ⟨2, ![a, 1]⟩ ![0] h v = fun i => v (ix1 (i 0)) := by
  funext i
  have hlt : (i 0).val < a := (i 0).isLt
  refine broadcastInDim_apply _ h v i (ix1 (i 0)) fun ax => ?_
  match ax with
  | ⟨0, _⟩ =>
    show (i 0).val = if a = 1 then 0 else (i 0).val
    split
    · omega
    · rfl

/-- A column broadcast across b columns holds, at (r, c), the column's entry r. -/
theorem bid_across {a b : ℕ} (v : (⟨2, ![a, 1]⟩ : Shape).Idx → α)
    (h : (⟨2, ![a, 1]⟩ : Shape).BroadcastsInDim ⟨2, ![a, b]⟩ (![0, 1] : Fin 2 → Fin 2)) :
    broadcastInDim ⟨2, ![a, b]⟩ ![0, 1] h v = fun i => v (ix2 (i 0) (0 : Fin 1)) := by
  funext i
  have hlt : (i 0).val < a := (i 0).isLt
  refine broadcastInDim_apply _ h v i (ix2 (i 0) (0 : Fin 1)) fun ax => ?_
  match ax with
  | ⟨0, _⟩ =>
    show (i 0).val = if a = 1 then 0 else (i 0).val
    split
    · omega
    · rfl
  | ⟨1, _⟩ => rfl

end Cert.LibBcastInDim
-- ==== Proof.RefOps.lean ====
/-
  The reference's host operations for one perceptron and for the normalized projection, as the functions of Spec.

  On the whole 50000-row arrays the reference computes the perceptron as dot_general, a bias row broadcast in two
  steps, a maximum with a broadcast zero, dot_general, bias; and the read-out as dot_general plus bias, a sum of
  squares along axis 1 from a zero initial value, a square root, a maximum with a broadcast ε and a quotient.  At
  the ideal values a dot_general is the matrix product, the host's sum is zero plus the row's sum, and the host's
  square root and quotient are the kernel's: the same functions of Spec, now on all rows at once.
-/
import proofs.«142178_j54185307406769_1_alg».proof.Proof.Gen.ReferenceIdeal
import proofs.«142178_j54185307406769_1_alg».proof.Proof.Spec
import proofs.«142178_j54185307406769_1_alg».proof.Proof.LibRowOps
import proofs.«142178_j54185307406769_1_alg».proof.Proof.LibBcastInDim

noncomputable section

open scoped BigOperators

namespace Cert.RefOps

open Cert.ReferenceIdeal Cert.ReferenceIdeal.Gen Idealize.ShloMosaic Idealize.ShloMosaic.ValueIdx
open Cert.Spec Cert.LibMatmul Cert.LibRowOps Cert.LibBcastInDim

/-- The reference's perceptron operations are the perceptron. -/
theorem mlp_ops (a : FVec Ideal S50000x64 .f32) (w1 : FVec Ideal S64x64 .f32) (b1 : FVec Ideal S64 .f32)
    (w2 : FVec Ideal S64x64 .f32) (b2 : FVec Ideal S64 .f32) :
    addf (Host.dotGeneral (F := Ideal) dot_S50000x64_S64x64_S50000x64_1_0_0_1_n_n none
        (maximumf (addf (Host.dotGeneral (F := Ideal) dot_S50000x64_S64x64_S50000x64_1_0_0_1_n_n none a w1)
            (broadcastInDim S50000x64 ![0, 1] bcast_S1x64_S50000x64_0_1 (broadcastInDim S1x64 ![1] bcast_S64_S1x64_1 b1)))
          (broadcastInDim S50000x64 ![] bcast_S_S50000x64 (constant (F := Ideal) S_ .f32 0x00000000#32))) w2)
      (broadcastInDim S50000x64 ![0, 1] bcast_S1x64_S50000x64_0_1 (broadcastInDim S1x64 ![1] bcast_S64_S1x64_1 b2))
    = mlp a w1 b1 w2 b2 := by
  simp only [Host.dotGeneral, dotGeneral_eq dot_S50000x64_S64x64_S50000x64_1_0_0_1_n_n rfl rfl rfl rfl rfl rfl]
  rw [bid_row, bid_row, bid_scalar]
  rfl

/-- The host's sum along axis 1 from a zero initial value is, at r, the sum of row r. -/
theorem host_rowsum (z : FVec Ideal S50000x32 .f32) :
    Host.reduceAdd (F := Ideal) z (constant (F := Ideal) S_ .f32 0x00000000#32) reducesTo_S50000x32_S50000_d1 h_S_
      = fun j => ∑ k : Fin 32, z (ix2 (j 0) k) := by
  funext j
  simp only [Host.reduceAdd, Ideal.hostReduceAdd_def]
  rw [Ideal.hostReduceAdd_single reducesTo_S50000x32_S50000_d1 (by decide)]
  show Ideal.ofBits .f32 0x00000000#32 + _ = _
  rw [Ideal.ofBits_zero_f32, zero_add]
  exact Finset.sum_congr rfl fun k _ => congrArg z (lift_row _ j k)

/-- The reference's read-out operations are the normalized projection. -/
theorem proj_ops (h : FVec Ideal S50000x64 .f32) (wr : FVec Ideal S64x32 .f32) (br : FVec Ideal S32 .f32) :
    Host.divf (F := Ideal)
      (addf (Host.dotGeneral (F := Ideal) dot_S50000x64_S64x32_S50000x32_1_0_0_1_n_n none h wr)
        (broadcastInDim S50000x32 ![0, 1] bcast_S1x32_S50000x32_0_1 (broadcastInDim S1x32 ![1] bcast_S32_S1x32_1 br)))
      (broadcastInDim S50000x32 ![0, 1] bcast_S50000x1_S50000x32_0_1
        (maximumf
          (Host.sqrt (F := Ideal) (broadcastInDim S50000x1 ![0] bcast_S50000_S50000x1_0
            (Host.reduceAdd (F := Ideal)
              (mulf
                (addf (Host.dotGeneral (F := Ideal) dot_S50000x64_S64x32_S50000x32_1_0_0_1_n_n none h wr)
                  (broadcastInDim S50000x32 ![0, 1] bcast_S1x32_S50000x32_0_1 (broadcastInDim S1x32 ![1] bcast_S32_S1x32_1 br)))
                (addf (Host.dotGeneral (F := Ideal) dot_S50000x64_S64x32_S50000x32_1_0_0_1_n_n none h wr)
                  (broadcastInDim S50000x32 ![0, 1] bcast_S1x32_S50000x32_0_1 (broadcastInDim S1x32 ![1] bcast_S32_S1x32_1 br))))
              (constant (F := Ideal) S_ .f32 0x00000000#32) reducesTo_S50000x32_S50000_d1 h_S_)))
          (broadcastInDim S50000x1 ![] bcast_S_S50000x1 (constant (F := Ideal) S_ .f32 0x2B8CBCCC#32))))
    = proj h wr br := by
  rw [host_rowsum]
  simp only [Host.dotGeneral, dotGeneral_eq dot_S50000x64_S64x32_S50000x32_1_0_0_1_n_n rfl rfl rfl rfl rfl rfl]
  rw [bid_row, bid_col, bid_across, bid_scalar]
  rfl

end Cert.RefOps

end
-- ==== Proof.RefStages.lean ====
/-
  The reference, stage by stage, and the one function both programs compute.

  The reference's run ends with its result at the composed term of its 150 host operations.  Read in stages:
  every layer first aggregates (the node features plus, for every node, the sum of the features gathered along its
  incoming edges — the same gather and scatter-add operations in every layer, kept here as ONE function of the
  features and the edge list and never opened), then applies the perceptron with that layer's slices of the weight
  arrays; after four layers comes the normalized projection.  `full` is that composition, written over the
  shared aggregation and slice functions and the functions of Spec.
-/
import proofs.«142178_j54185307406769_1_alg».proof.Proof.Gen.ReferenceIdeal.Read
import proofs.«142178_j54185307406769_1_alg».proof.Proof.RefOps

set_option maxRecDepth 8192

noncomputable section

namespace Cert.RefStages

open Cert.ReferenceIdeal Cert.ReferenceIdeal.Read Idealize.ShloMosaic Idealize.SL.Sem
open Cert.Spec

/-- Four message-passing layers and the read-out, as one function of the eight arguments. -/
def full (x0 : (⟨S50000x64, .f32⟩ : BufTy).Contents (Elt Ideal)) (x1 : (⟨S2x800000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) (x6 : (⟨S64x32, .f32⟩ : BufTy).Contents (Elt Ideal)) (x7 : (⟨S32, .f32⟩ : BufTy).Contents (Elt Ideal)) : FVec Ideal S50000x32 .f32 :=
  proj (mlp (val_main_v14 (F := Ideal) (mlp (val_main_v14 (F := Ideal) (mlp (val_main_v14 (F := Ideal) (mlp (val_main_v14 (F := Ideal) x0 x1) (val_main_v16 (F := Ideal) x2) (val_main_v19 (F := Ideal) x3) (val_main_v25 (F := Ideal) x4) (val_main_v28 (F := Ideal) x5)) x1) (val_main_v44 (F := Ideal) x2) (val_main_v47 (F := Ideal) x3) (val_main_v53 (F := Ideal) x4) (val_main_v56 (F := Ideal) x5)) x1) (val_main_v72 (F := Ideal) x2) (val_main_v75 (F := Ideal) x3) (val_main_v81 (F := Ideal) x4) (val_main_v84 (F := Ideal) x5)) x1) (val_main_v100 (F := Ideal) x2) (val_main_v103 (F := Ideal) x3) (val_main_v109 (F := Ideal) x4) (val_main_v112 (F := Ideal) x5)) x6 x7

/-- Layer 0: the reference's operations are the perceptron of the aggregated features and layer 0's weights. -/
theorem layer0 (x0 : (⟨S50000x64, .f32⟩ : BufTy).Contents (Elt Ideal)) (x1 : (⟨S2x800000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) :
    val_main_v31 (F := Ideal) x0 x1 x2 x3 x4 x5 = mlp (val_main_v14 (F := Ideal) x0 x1) (val_main_v16 (F := Ideal) x2) (val_main_v19 (F := Ideal) x3) (val_main_v25 (F := Ideal) x4) (val_main_v28 (F := Ideal) x5) := by
  unfold val_main_v31 val_main_v30 val_main_v29 val_main_v26 val_main_v23 val_main_call0_v0 val_main_call0_cst val_main_v22 val_main_v21 val_main_v20 val_main_v17
  exact Cert.RefOps.mlp_ops _ _ _ _ _

/-- Layer 1's aggregation is the shared aggregation of layer 0's result. -/
theorem agg1 (x0 : (⟨S50000x64, .f32⟩ : BufTy).Contents (Elt Ideal)) (x1 : (⟨S2x800000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) :
    val_main_v42 (F := Ideal) x0 x1 x2 x3 x4 x5 = val_main_v14 (F := Ideal) (val_main_v31 (F := Ideal) x0 x1 x2 x3 x4 x5) x1 := by
  unfold val_main_v42 val_main_v41 val_main_v40 val_main_v39 val_main_cst_3 val_main_v38 val_main_v37 val_main_v36 val_main_v35 val_main_v34 val_main_c_2 val_main_v33 val_main_v32 val_main_c_1
  unfold val_main_v14 val_main_v13 val_main_v12 val_main_v11 val_main_cst val_main_v10 val_main_v9 val_main_v8 val_main_v7 val_main_v6 val_main_c_0 val_main_v5 val_main_v4 val_main_c
  rfl

/-- Layer 1: the reference's operations are the perceptron of the aggregated features and layer 1's weights. -/
theorem layer1 (x0 : (⟨S50000x64, .f32⟩ : BufTy).Contents (Elt Ideal)) (x1 : (⟨S2x800000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) :
    val_main_v59 (F := Ideal) x0 x1 x2 x3 x4 x5 = mlp (val_main_v42 (F := Ideal) x0 x1 x2 x3 x4 x5) (val_main_v44 (F := Ideal) x2) (val_main_v47 (F := Ideal) x3) (val_main_v53 (F := Ideal) x4) (val_main_v56 (F := Ideal) x5) := by
  unfold val_main_v59 val_main_v58 val_main_v57 val_main_v54 val_main_v51 val_main_call1_v0 val_main_call1_cst val_main_v50 val_main_v49 val_main_v48 val_main_v45
  exact Cert.RefOps.mlp_ops _ _ _ _ _

/-- Layer 2's aggregation is the shared aggregation of layer 1's result. -/
theorem agg2 (x0 : (⟨S50000x64, .f32⟩ : BufTy).Contents (Elt Ideal)) (x1 : (⟨S2x800000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) :
    val_main_v70 (F := Ideal) x0 x1 x2 x3 x4 x5 = val_main_v14 (F := Ideal) (val_main_v59 (F := Ideal) x0 x1 x2 x3 x4 x5) x1 := by
  unfold val_main_v70 val_main_v69 val_main_v68 val_main_v67 val_main_cst_6 val_main_v66 val_main_v65 val_main_v64 val_main_v63 val_main_v62 val_main_c_5 val_main_v61 val_main_v60 val_main_c_4
  unfold val_main_v14 val_main_v13 val_main_v12 val_main_v11 val_main_cst val_main_v10 val_main_v9 val_main_v8 val_main_v7 val_main_v6 val_main_c_0 val_main_v5 val_main_v4 val_main_c
  rfl

/-- Layer 2: the reference's operations are the perceptron of the aggregated features and layer 2's weights. -/
theorem layer2 (x0 : (⟨S50000x64, .f32⟩ : BufTy).Contents (Elt Ideal)) (x1 : (⟨S2x800000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) :
    val_main_v87 (F := Ideal) x0 x1 x2 x3 x4 x5 = mlp (val_main_v70 (F := Ideal) x0 x1 x2 x3 x4 x5) (val_main_v72 (F := Ideal) x2) (val_main_v75 (F := Ideal) x3) (val_main_v81 (F := Ideal) x4) (val_main_v84 (F := Ideal) x5) := by
  unfold val_main_v87 val_main_v86 val_main_v85 val_main_v82 val_main_v79 val_main_call2_v0 val_main_call2_cst val_main_v78 val_main_v77 val_main_v76 val_main_v73
  exact Cert.RefOps.mlp_ops _ _ _ _ _

/-- Layer 3's aggregation is the shared aggregation of layer 2's result. -/
theorem agg3 (x0 : (⟨S50000x64, .f32⟩ : BufTy).Contents (Elt Ideal)) (x1 : (⟨S2x800000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) :
    val_main_v98 (F := Ideal) x0 x1 x2 x3 x4 x5 = val_main_v14 (F := Ideal) (val_main_v87 (F := Ideal) x0 x1 x2 x3 x4 x5) x1 := by
  unfold val_main_v98 val_main_v97 val_main_v96 val_main_v95 val_main_cst_9 val_main_v94 val_main_v93 val_main_v92 val_main_v91 val_main_v90 val_main_c_8 val_main_v89 val_main_v88 val_main_c_7
  unfold val_main_v14 val_main_v13 val_main_v12 val_main_v11 val_main_cst val_main_v10 val_main_v9 val_main_v8 val_main_v7 val_main_v6 val_main_c_0 val_main_v5 val_main_v4 val_main_c
  rfl

/-- Layer 3: the reference's operations are the perceptron of the aggregated features and layer 3's weights. -/
theorem layer3 (x0 : (⟨S50000x64, .f32⟩ : BufTy).Contents (Elt Ideal)) (x1 : (⟨S2x800000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) :
    val_main_v115 (F := Ideal) x0 x1 x2 x3 x4 x5 = mlp (val_main_v98 (F := Ideal) x0 x1 x2 x3 x4 x5) (val_main_v100 (F := Ideal) x2) (val_main_v103 (F := Ideal) x3) (val_main_v109 (F := Ideal) x4) (val_main_v112 (F := Ideal) x5) := by
  unfold val_main_v115 val_main_v114 val_main_v113 val_main_v110 val_main_v107 val_main_call3_v0 val_main_call3_cst val_main_v106 val_main_v105 val_main_v104 val_main_v101
  exact Cert.RefOps.mlp_ops _ _ _ _ _

/-- The read-out: the reference's last operations are the normalized projection of layer 3's result. -/
theorem readout (x0 : (⟨S50000x64, .f32⟩ : BufTy).Contents (Elt Ideal)) (x1 : (⟨S2x800000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) (x6 : (⟨S64x32, .f32⟩ : BufTy).Contents (Elt Ideal)) (x7 : (⟨S32, .f32⟩ : BufTy).Contents (Elt Ideal)) :
    val_main_v124 (F := Ideal) x0 x1 x2 x3 x4 x5 x6 x7 = proj (val_main_v115 (F := Ideal) x0 x1 x2 x3 x4 x5) x6 x7 := by
  unfold val_main_v124 val_main_v123 val_main_v122 val_main_v121 val_main_cst_10 val_main_v120 val_main_call4_v2 val_main_call4_v1 val_main_call4_cst val_main_call4_v0 val_main_v119 val_main_v118 val_main_v117 val_main_v116
  exact Cert.RefOps.proj_ops _ _ _

/-- The reference's last stage is `full` of the arguments. -/
theorem stage_full (x0 : (⟨S50000x64, .f32⟩ : BufTy).Contents (Elt Ideal)) (x1 : (⟨S2x800000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) (x6 : (⟨S64x32, .f32⟩ : BufTy).Contents (Elt Ideal)) (x7 : (⟨S32, .f32⟩ : BufTy).Contents (Elt Ideal)) :
    val_main_v124 (F := Ideal) x0 x1 x2 x3 x4 x5 x6 x7 = full x0 x1 x2 x3 x4 x5 x6 x7 := by
  rw [readout, layer3, agg3, layer2, agg2, layer1, agg1, layer0]
  rfl

/-- The reference's composed result term is `full` of the launch contents of its arguments. -/
theorem result_full (m : (ℓ : Loc nD τ sig) → Buf (Elt Ideal) ℓ) (c : Dev nD) :
    Cert.ReferenceIdeal.Value.res_main_v124 m c
      = full (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v124_eq m c).trans (stage_full _ _ _ _ _ _ _ _)

end Cert.RefStages

end
-- ==== Proof.KHost.lean ====
/-
  The idealized kernel program's result as `full` of its arguments.  Each launch leaves, in its result array, its
  body's row-local function of the arrays it found (the tiles cover the array); what it found is the shared
  aggregation of the previous result and that layer's weight slices.  Unrolled over the four layers and the
  read-out, the last boundary's contents at the result buffer is the composition `full`.
-/
import proofs.«142178_j54185307406769_1_alg».proof.Proof.KEntry
import proofs.«142178_j54185307406769_1_alg».proof.Proof.KBlocks0
import proofs.«142178_j54185307406769_1_alg».proof.Proof.KBlocks1
import proofs.«142178_j54185307406769_1_alg».proof.Proof.KBlocks2
import proofs.«142178_j54185307406769_1_alg».proof.Proof.KBlocks3
import proofs.«142178_j54185307406769_1_alg».proof.Proof.KBlocks4
import proofs.«142178_j54185307406769_1_alg».proof.Proof.RefStages

set_option maxRecDepth 16384

noncomputable section

namespace Cert.KHost

open Cert.KernelIdeal Cert.KernelIdeal.Gen
open Idealize.ShloMosaic Idealize.ShloMosaic.TcCoe Idealize.ShloMosaic.StableHlo
open Idealize.SL.Sem
open Cert.Spec

variable (m : (ℓ : Loc nD τ sig) → Buf (Elt Ideal) ℓ) (ρ : Dev nD → PrngReg)

/-- Launch 0 leaves the perceptron of its operand arrays in its result array. -/
theorem o0 (c : Dev nD) : (W2 m ρ c (Proc.devRef .tc main_v23))
    = mlp (W1 m ρ c (Proc.devRef .tc main_v14)) (W1 m ρ c (Proc.devRef .tc main_v16)) (W1 m ρ c (Proc.devRef .tc main_v18)) (W1 m ρ c (Proc.devRef .tc main_v20)) (W1 m ρ c (Proc.devRef .tc main_v22)) :=
  (W2_arr m ρ c 5).trans (Cert.KBlocks0.final (V1 m ρ) c)

/-- Launch 1 leaves the perceptron of its operand arrays in its result array. -/
theorem o1 (c : Dev nD) : (W4 m ρ c (Proc.devRef .tc main_v43))
    = mlp (W3 m ρ c (Proc.devRef .tc main_v34)) (W3 m ρ c (Proc.devRef .tc main_v36)) (W3 m ρ c (Proc.devRef .tc main_v38)) (W3 m ρ c (Proc.devRef .tc main_v40)) (W3 m ρ c (Proc.devRef .tc main_v42)) :=
  (W4_arr m ρ c 5).trans (Cert.KBlocks1.final (V3 m ρ) c)

/-- Launch 2 leaves the perceptron of its operand arrays in its result array. -/
theorem o2 (c : Dev nD) : (W6 m ρ c (Proc.devRef .tc main_v63))
    = mlp (W5 m ρ c (Proc.devRef .tc main_v54)) (W5 m ρ c (Proc.devRef .tc main_v56)) (W5 m ρ c (Proc.devRef .tc main_v58)) (W5 m ρ c (Proc.devRef .tc main_v60)) (W5 m ρ c (Proc.devRef .tc main_v62)) :=
  (W6_arr m ρ c 5).trans (Cert.KBlocks2.final (V5 m ρ) c)

/-- Launch 3 leaves the perceptron of its operand arrays in its result array. -/
theorem o3 (c : Dev nD) : (W8 m ρ c (Proc.devRef .tc main_v83))
    = mlp (W7 m ρ c (Proc.devRef .tc main_v74)) (W7 m ρ c (Proc.devRef .tc main_v76)) (W7 m ρ c (Proc.devRef .tc main_v78)) (W7 m ρ c (Proc.devRef .tc main_v80)) (W7 m ρ c (Proc.devRef .tc main_v82)) :=
  (W8_arr m ρ c 5).trans (Cert.KBlocks3.final (V7 m ρ) c)

/-- The read-out launch leaves the normalized projection of its operand arrays in the program's result. -/
theorem o4 (c : Dev nD) : (W9 m ρ c (Proc.devRef .tc main_v84))
    = proj (W8 m ρ c (Proc.devRef .tc main_v83)) (W8 m ρ c (Proc.devRef .tc main_arg6)) (W8 m ρ c (Proc.devRef .tc main_arg7)) :=
  (W9_arr m ρ c 3).trans (Cert.KBlocks4.final (V8 m ρ) c)

set_option maxHeartbeats 4000000 in
/-- The program's result buffer ends at `full` of the launch contents of the eight arguments. -/
theorem result_full (c : Dev nD) : (W9 m ρ c (Proc.devRef .tc main_v84))
    = Cert.RefStages.full (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [o4 m ρ c,
    Cert.KCarry.c8_arg6 m ρ c,
    Cert.KCarry.c8_arg7 m ρ c,
    o3 m ρ c,
    Cert.KEntry.e7_a m ρ c,
    Cert.KEntry.e7_w1 m ρ c,
    Cert.KEntry.e7_b1 m ρ c,
    Cert.KEntry.e7_w2 m ρ c,
    Cert.KEntry.e7_b2 m ρ c,
    o2 m ρ c,
    Cert.KEntry.e5_a m ρ c,
    Cert.KEntry.e5_w1 m ρ c,
    Cert.KEntry.e5_b1 m ρ c,
    Cert.KEntry.e5_w2 m ρ c,
    Cert.KEntry.e5_b2 m ρ c,
    o1 m ρ c,
    Cert.KEntry.e3_a m ρ c,
    Cert.KEntry.e3_w1 m ρ c,
    Cert.KEntry.e3_b1 m ρ c,
    Cert.KEntry.e3_w2 m ρ c,
    Cert.KEntry.e3_b2 m ρ c,
    o0 m ρ c,
    Cert.KEntry.e1_a m ρ c,
    Cert.KEntry.e1_w1 m ρ c,
    Cert.KEntry.e1_b1 m ρ c,
    Cert.KEntry.e1_w2 m ρ c,
    Cert.KEntry.e1_b2 m ρ c]
  rfl

end Cert.KHost

end
-- ==== Proof.lean ====
/-
  The graph encoder: four message-passing layers and a normalized read-out, the tiled kernel program against the
  whole-array reference, at the ideal values.

  Both programs compute ONE function of the eight arguments (`Cert.RefStages.full`).  Each layer aggregates — the
  node features plus, per node, the sum of the features gathered along its incoming edges; both programs do this
  with the same host gather and scatter-add, carried through as one function of the features and the edge list — and
  then applies a two-layer perceptron row by row; the read-out projects every row and divides it by its length,
  the length kept above a fixed ε.  The kernel program runs the perceptron and the read-out on tiles of 5000 rows;
  they are row-local, so a tile's result is the same rows of the whole-array function, and the ten tiles cover the
  array.  The products are sums over the 64 hidden coordinates in the same index order on both sides, and the
  narrowing to a 16-bit format before each product is the identity on ideal values, so no law of the extended reals
  beyond that is used and the finiteness precondition is never opened.

  The three frame claims are the generated frames (the reference's is its generated run with the result dropped);
  the idealization rewrote nothing, so `preserves` is `True`.
-/
import proofs.«142178_j54185307406769_1_alg».proof.Defs
import proofs.«142178_j54185307406769_1_alg».proof.Proof.Gen.Kernel
import proofs.«142178_j54185307406769_1_alg».proof.Proof.Gen.Kernel.Skeleton
import proofs.«142178_j54185307406769_1_alg».proof.Proof.Gen.Kernel.Launch
import proofs.«142178_j54185307406769_1_alg».proof.Proof.Gen.Kernel.Points
import proofs.«142178_j54185307406769_1_alg».proof.Proof.Gen.Kernel.Frame
import proofs.«142178_j54185307406769_1_alg».proof.Proof.Gen.KernelIdeal
import proofs.«142178_j54185307406769_1_alg».proof.Proof.Gen.KernelIdeal.Skeleton
import proofs.«142178_j54185307406769_1_alg».proof.Proof.Gen.KernelIdeal.Launch
import proofs.«142178_j54185307406769_1_alg».proof.Proof.Gen.KernelIdeal.Points
import proofs.«142178_j54185307406769_1_alg».proof.Proof.Gen.KernelIdeal.Frame
import proofs.«142178_j54185307406769_1_alg».proof.Proof.Gen.ReferenceIdeal
import proofs.«142178_j54185307406769_1_alg».proof.Proof.Gen.ReferenceIdeal.Run
import proofs.«142178_j54185307406769_1_alg».proof.Proof.Gen.ReferenceIdeal.Read
import proofs.«142178_j54185307406769_1_alg».proof.Proof.Gen.Pre_finite_inputs
import proofs.«142178_j54185307406769_1_alg».proof.Proof.KRun
import proofs.«142178_j54185307406769_1_alg».proof.Proof.KHost
import proofs.«142178_j54185307406769_1_alg».proof.Proof.RefStages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with their result at `full` of the arguments. -/
theorem algebraic : Cert.algebraic_KernelIdeal_ReferenceIdeal := by
  intro m ρ m' ρ' _ hagree
  refine ⟨fun c => Cert.RefStages.full
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KHost.result_full m ρ c), (h c).2⟩) (Cert.KRun.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.RefStages.result_full, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
